-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x4096x1024 .f32) (main_arg1 : FVec F S2x4096x1024 .f32) (main_arg2 : FVec F S1024x1024 .f32) (main_arg3 : FVec F S1024 .f32) (main_arg4 : FVec F S1024x1024 .f32) (main_arg5 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2x4096x1024 : Shape := ⟨3, ![2, 4096, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S1x128x1024 : Shape := ⟨3, ![1, 128, 1024]⟩
abbrev S1x4096x1024 : Shape := ⟨3, ![1, 4096, 1024]⟩
abbrev S4096x1024 : Shape := ⟨2, ![4096, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩
abbrev S2x4096x1x1024 : Shape := ⟨4, ![2, 4096, 1, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S2x4096x1024, .bf16⟩
  | .hbm, ⟨16, _⟩ => ⟨S2x4096x1024, .bf16⟩
  | .hbm, ⟨17, _⟩ => ⟨S2x4096x1024, .f32⟩
  | .hbm, ⟨18, _⟩ => ⟨S2x4096x1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x4096x1024, .bf16⟩
  | .local _ .vmem, ⟨13, _⟩ => ⟨S1x4096x1024, .f32⟩
  | .local _ .vmem, ⟨14, _⟩ => ⟨S1x128x1024, .f32⟩
  | .local _ .vmem, ⟨15, _⟩ => ⟨S1x128x1024, .f32⟩
  | .local _ .vmem, ⟨16, _⟩ => ⟨S4096x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x4096x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S2x4096x1024_S8192x1024 : S2x4096x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S2x4096x1024 : S8192x1024.ShapeCasts S2x4096x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  packedbf16_S4096x1024_S4096x1024_0_0 : (Rect.unit (s := S4096x1024) ![0, 0] S4096x1024.size inb_S4096x1024_S4096x1024_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S128x4096_S128 : S128x4096.Reduces [1] S128
  shapeCasts_S128_S128x1 : S128.ShapeCasts S128x1
  broadcasts_S128x1_S128x4096 : S128x1.Broadcasts S128x4096
  broadcasts_S128x1_S128x1024 : S128x1.Broadcasts S128x1024
  shapeCasts_S128x1024_S1x128x1024 : S128x1024.ShapeCasts S1x128x1024
  shapeCasts_S2x4096x1024_S2x4096x1x1024 : S2x4096x1024.ShapeCasts S2x4096x1x1024
  dot_S512x1024_S1024x1024_S512x1024_1_0_0_1_n_n_wf : DotDims.WF S512x1024 S1024x1024 S512x1024 [1] [0] [0] [1] [] []
  dot_S128x1024_S4096x1024_S128x4096_1_1_0_0_n_n_wf : DotDims.WF S128x1024 S4096x1024 S128x4096 [1] [1] [0] [0] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S2x4096x1024.size a
  hwx1_0 : ∀ i : grid1.Coords, EltTy.bits .bf16 = 32 ∨ (Rect.block (s := S2x4096x1024) S1x128x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096x1024.size a ≤ S2x4096x1024.size a
  hwx1_1 : ∀ i : grid1.Coords, EltTy.bits .bf16 = 32 ∨ (Rect.block (s := S2x4096x1024) S1x4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096x1024.size a ≤ S2x4096x1024.size a
  hwx1_2 : ∀ i : grid1.Coords, EltTy.bits .f32 = 32 ∨ (Rect.block (s := S2x4096x1024) S1x4096x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S2x4096x1024.size a
  hwx1_3 : ∀ i : grid1.Coords, EltTy.bits .f32 = 32 ∨ (Rect.block (s := S2x4096x1024) S1x128x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S1024 : Shape := ⟨1, ![1024]⟩
abbrev S1x1x1024 : Shape := ⟨3, ![1, 1, 1024]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x4096x1x1024 : Shape := ⟨4, ![2, 4096, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2x4096x1024, .f32⟩
  | .hbm, ⟨7, _⟩ => ⟨S1x1x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S1x1x1024, .f32⟩
  | .hbm, ⟨12, _⟩ => ⟨S2x4096x1024, .f32⟩
  | .hbm, ⟨13, _⟩ => ⟨S2x4096x1024, .f32⟩
  | .hbm, ⟨14, _⟩ => ⟨S2x4096x4096, .f32⟩
  | .hbm, ⟨15, _⟩ => ⟨S_, .f32⟩
  | .hbm, ⟨16, _⟩ => ⟨S2x4096, .f32⟩
  | .hbm, ⟨17, _⟩ => ⟨S_, .f32⟩
  | .hbm, ⟨18, _⟩ => ⟨S2x4096, .f32⟩
  | .hbm, ⟨19, _⟩ => ⟨S2x4096, .f32⟩
  | .hbm, ⟨20, _⟩ => ⟨S2x4096x1, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S2x4096x4096, .f32⟩
  | .hbm, ⟨28, _⟩ => ⟨S2x4096x4096, .f32⟩
  | .hbm, ⟨29, _⟩ => ⟨S2x4096x1024, .f32⟩
  | .hbm, ⟨30, _⟩ => ⟨S2x4096x1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  shapeCasts_S2x4096x1024_S2x4096x1x1024 : S2x4096x1024.ShapeCasts S2x4096x1x1024
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.K_R0.lean ====
/-
  The first region of the kernel as printed, the tile-by-tile projection of the hidden states into queries and keys,
  stated at the contents `V` the core's buffers hold when the region is entered.

  The region has seven windows over sixteen grid points: window 0 is a 512-row tile of the flattened hidden states,
  windows 1 and 2 the two transposed weight matrices, windows 3 and 4 the two bias rows (each of these four is the
  same block at every point), and windows 5 and 6 the 512-row tiles of the query and key results.  At a point the
  body reads the five input blocks whole and stores one whole tile into each output block: the query tile is the
  payload of the tile, the first weight matrix and the first bias row, the key tile that of the tile, the second
  weight matrix and the second bias row.  So after the body an output's buffer holds the canonical contents of one
  whole-block store, every input's buffer still holds its block, and nothing else of the core's is touched: the
  region's invariant is the rest of the scoped buffers and the generator register at whatever they hold.
  Everything here is stated at any float instance `F`.
-/
import proofs.«136459_j45689862094989_2_alg».proof.Proof.Gen.Kernel.Launch
import proofs.«136459_j45689862094989_2_alg».proof.Proof.Gen.Kernel.Skeleton
import proofs.«136459_j45689862094989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it
    there or not (when it did not, the block's index has not moved since it last did). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_t : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in each output window's buffer -/

/-- The query tile's buffer after the body: one whole store of the projection of the tile by the first weight matrix
    and bias row. -/
def out0_5 (x0 : Vec F S512x1024 .f32) (x1 : Vec F S1024x1024 .bf16) (x3 : Vec F S1x1024 .f32) : Vec F S512x1024 .bf16 :=
  View.canon [⟨r0_t, k0_pay2 (View.ld x0 r0_t) (View.ld x1 r0_w) (View.ld x3 r0_b)⟩]

/-- The key tile's buffer after the body: the same with the second weight matrix and bias row. -/
def out0_6 (x0 : Vec F S512x1024 .f32) (x2 : Vec F S1024x1024 .bf16) (x4 : Vec F S1x1024 .f32) : Vec F S512x1024 .bf16 :=
  View.canon [⟨r0_t, k0_pay3 (View.ld x0 r0_t) (View.ld x2 r0_w) (View.ld x4 r0_b)⟩]

/-- One whole-block store covers the block. -/
theorem cover0_o (p0 : Vec F S512x1024 .bf16) (y : S512x1024.Idx) :
    ∃ pc ∈ ([⟨r0_t, p0⟩] : List (View.Piece (Elt F) S512x1024 .bf16)), y ∈ pc.1.set :=
  View.cover_of_tiled [⟨r0_t, p0⟩] S512x1024.size (by rfl) y

/-! ## The body's triple -/

set_option maxHeartbeats 4000000 in
/-- On whole staging memrefs, the five inputs' at their read contents and the two outputs' at anything, the body runs
    to the continuation holding the inputs' as they were and each output's at its one store. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 : Vec F S1024x1024 .bf16) (x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x3) ∗ owns (c : Thread nD τ) arg7 fullShare (out0_6 x0 x2 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The region's proof data -/

/-- On core `c`: the arrays as the region finds them; after the body at point `t` each input's buffer at its block, the
    query tile's at the projection of the point's blocks by the first matrix and bias, the key tile's by the second;
    the invariant the rest of the scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t)
    | ⟨6, _⟩ => out0_6 (iblk0 V c 0 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 3 t) := by dsimp only [dat0]
theorem after0_6 (c : Dev nD) (t : Fin cfg0.N) : (dat0 V c).after 6 t = out0_6 (iblk0 V c 0 t) (iblk0 V c 2 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_R1.lean ====
/-
  The second region of the kernel as printed, attention for one 128-row query tile at a time, stated at the contents
  `V` the core's buffers hold when the region is entered.

  The grid is 2 batches by 32 query tiles, 64 points, point `t` being tile `t mod 32` of batch `t / 32`.  Window 0 is
  the query tile, windows 1 and 2 the whole key and value blocks of the batch (the same block at all 32 points of a
  batch), window 3 the result tile.  Beside its windows the body has a scratch buffer of the value block's size.  At
  the first tile of a batch (`t mod 32 = 0`) it first stores the value block, recast, whole into the scratch; at every
  point it then reads the query tile, the key block and the SCRATCH, and stores the attention of the three whole into
  the result tile.  So the scratch is carried from point to point: after point `t` it holds the recast value block of
  the batch's first point, `t − t mod 32`, and the result tile holds the attention of the point's query tile, its key
  block and that scratch.  The region's invariant therefore names the scratch's contents after every point; before
  the first point it is the rest of the scoped buffers at anything.
  Everything here is stated at any float instance `F`.
-/
import proofs.«136459_j45689862094989_2_alg».proof.Proof.Gen.Kernel.Launch
import proofs.«136459_j45689862094989_2_alg».proof.Proof.Gen.Kernel.Skeleton
import proofs.«136459_j45689862094989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_q : Rect S1x128x1024 := Rect.unit (s := S1x128x1024) ![0, 0, 0] S1x128x1024.size inb_S1x128x1024_S1x128x1024_0_0_0
abbrev r1_k : Rect S1x4096x1024 := Rect.unit (s := S1x4096x1024) ![0, 0, 0] S1x4096x1024.size inb_S1x4096x1024_S1x4096x1024_0_0_0
abbrev r1_s : Rect S4096x1024 := Rect.unit (s := S4096x1024) ![0, 0] S4096x1024.size inb_S4096x1024_S4096x1024_0_0

/-! ## What the body leaves in the scratch and in the result tile -/

/-- The scratch after a first tile: one whole store of the recast value block. -/
def sc1 (x2 : Vec F S1x4096x1024 .f32) : Vec F S4096x1024 .bf16 :=
  View.canon [⟨r1_s, k1_pay1 (View.ld x2 r1_k)⟩]

/-- The result tile's buffer after the body: one whole store of the attention of the query tile, the key block and
    the scratch's contents. -/
def out1_3 (x0 : Vec F S1x128x1024 .bf16) (x1 : Vec F S1x4096x1024 .bf16) (xs : Vec F S4096x1024 .bf16) : Vec F S1x128x1024 .f32 :=
  View.canon [⟨r1_q, k1_pay2 (View.ld x0 r1_q) (View.ld x1 r1_k) (View.ld xs r1_s)⟩]

theorem cover1_q (p0 : Vec F S1x128x1024 .f32) (y : S1x128x1024.Idx) :
    ∃ pc ∈ ([⟨r1_q, p0⟩] : List (View.Piece (Elt F) S1x128x1024 .f32)), y ∈ pc.1.set :=
  View.cover_of_tiled [⟨r1_q, p0⟩] S1x128x1024.size (by rfl) y

theorem cover1_s (p0 : Vec F S4096x1024 .bf16) (y : S4096x1024.Idx) :
    ∃ pc ∈ ([⟨r1_s, p0⟩] : List (View.Piece (Elt F) S4096x1024 .bf16)), y ∈ pc.1.set :=
  View.cover_of_tiled [⟨r1_s, p0⟩] S4096x1024.size (by rfl) y

/-! ## The body's branch: is this the first tile of its batch? -/

/-- The condition of the body's one conditional, from the grid coordinates. -/
abbrev cond1 (i : grid1.Coords) : Prop := (Scalar.cmpi .ne (Scalar.extui (Scalar.cmpi .eq (BitVec.ofNat 32 (i 1).val) 0#32)) 0#32) = 1#1

/-- It holds at the points ≡ 0 (mod 32), decided over the grid. -/
theorem hcond1 : ∀ t : Fin cfg1.N, cond1 (grid1.coords t) ↔ t.val % 32 = 0 :=
  (by decide +kernel : ∀ t : Fin grid1.N, cond1 (grid1.coords t) ↔ t.val % 32 = 0)

/-! ## The body's triples -/

set_option maxHeartbeats 4000000 in
/-- At a first tile: the three inputs' memrefs at their read contents, the result's and the scratch's at anything; the
    body leaves the scratch at the recast value block and the result tile at the attention over THAT scratch. -/
theorem sound_kernel1_T (c : Dev nD) (E : Set ℕ) (i : grid1.Coords) (hc : cond1 i)
    (arg2 : Memref sig .tc .vmem S1x128x1024 .bf16) (harg2 : arg2.IsWhole) (arg3 : Memref sig .tc .vmem S1x4096x1024 .bf16) (harg3 : arg3.IsWhole)
    (arg4 : Memref sig .tc .vmem S1x4096x1024 .f32) (harg4 : arg4.IsWhole) (arg5 : Memref sig .tc .vmem S1x128x1024 .f32) (harg5 : arg5.IsWhole)
    (arg6 : Memref sig .tc .vmem S4096x1024 .bf16) (harg6 : arg6.IsWhole)
    (x0 : Vec F S1x128x1024 .bf16) (x1 : Vec F S1x4096x1024 .bf16) (x2 : Vec F S1x4096x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 (sc1 x2)) ∗ owns (c : Thread nD τ) arg6 fullShare (sc1 x2)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_q _)).trans ?_
    sl_unfold_run_names
    unfold out1_3 sc1
    rw [View.readCov_eq_canon_ld _ _ _ (cover1_s _)]
    rfl
  iexists _; isplitr
  swap; · iexact H6
  ipureintro
  sl_unfold_run_names
  exact View.read_writes_eq_canon _ _ _ (cover1_s _)

set_option maxHeartbeats 4000000 in
/-- At a later tile: the scratch's memref too at its read contents `xs`; the body leaves it as it was and the result
    tile at the attention over it. -/
theorem sound_kernel1_F (c : Dev nD) (E : Set ℕ) (i : grid1.Coords) (hc : ¬cond1 i)
    (arg2 : Memref sig .tc .vmem S1x128x1024 .bf16) (harg2 : arg2.IsWhole) (arg3 : Memref sig .tc .vmem S1x4096x1024 .bf16) (harg3 : arg3.IsWhole)
    (arg4 : Memref sig .tc .vmem S1x4096x1024 .f32) (harg4 : arg4.IsWhole) (arg5 : Memref sig .tc .vmem S1x128x1024 .f32) (harg5 : arg5.IsWhole)
    (arg6 : Memref sig .tc .vmem S4096x1024 .bf16) (harg6 : arg6.IsWhole)
    (x0 : Vec F S1x128x1024 .bf16) (x1 : Vec F S1x4096x1024 .bf16) (x2 : Vec F S1x4096x1024 .f32) (xs : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 xs) ∗ owns (c : Thread nD τ) arg6 fullShare xs) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_q _)
  iexists f6; isplitr; · ipureintro; rfl
  iexact H6

/-! ## The scratch point by point, and the region's invariant -/

/-- The scratch operand: a whole scoped buffer of the kernel's own, passed beside the windows. -/
abbrev scM1 : Memref sig .tc .vmem S4096x1024 .bf16 := Memref.whole cc1_scratch0

/-- What the scratch holds after the body at position `n`: the recast value block of the batch's first point. -/
def scAt (c : Dev nD) (n : ℕ) (hn : n < cfg1.N) : Vec F S4096x1024 .bf16 :=
  sc1 (iblk1 V c 2 ⟨n - n % 32, Nat.lt_of_le_of_lt (Nat.sub_le _ _) hn⟩)

/-- At a first tile that is the point's own value block, -/
theorem scAt_first (c : Dev nD) (t : Fin cfg1.N) (h : t.val % 32 = 0) : scAt V c t.val t.isLt = sc1 (iblk1 V c 2 t) := by
  unfold scAt
  exact congrArg (fun t' : Fin cfg1.N => (sc1 (iblk1 V c 2 t') : Vec F S4096x1024 .bf16)) (Fin.ext (by show t.val - t.val % 32 = t.val; omega))

/-- and at a later tile what the point before left. -/
theorem scAt_later (c : Dev nD) (t : Fin cfg1.N) (h : ¬t.val % 32 = 0) :
    scAt V c t.val t.isLt = scAt V c (t.val - 1) (Nat.lt_of_le_of_lt (Nat.sub_le _ _) t.isLt) := by
  unfold scAt
  exact congrArg (fun t' : Fin cfg1.N => (sc1 (iblk1 V c 2 t') : Vec F S4096x1024 .bf16)) (Fin.ext (by show t.val - t.val % 32 = (t.val - 1) - (t.val - 1) % 32; omega))

/-- The scoped buffers that are neither a staging buffer of this region nor its scratch (the first region's staging
    buffers), each at some contents, beside whatever is said of the scratch. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S)

/-- The class of invariants the launch hands a region, with the scratch as a memref owned at some contents. -/
theorem PhiA1_eq (c : Dev nD) :
    (Pipeline.ΦA spec1 c : sProp 𝕄) = iprop(others1 c (iprop(∃ d, owns (c : Thread nD τ) scM1 fullShare d)) ∗ (∃ r, prngReg c r)) := by
  unfold Pipeline.ΦA others1; rw [scopedRest1_eq]; simp only [scM1, owns_whole]; try rfl

/-- The region's invariant before position `n`: before the first point the launch's; afterwards the scratch at what
    the point before left, the other scoped buffers and the generator register at anything. -/
def Phi1 (c : Dev nD) : (n : ℕ) → n ≤ cfg1.N → sProp 𝕄
  | 0, _ => Pipeline.ΦA spec1 c
  | n + 1, hn => iprop(others1 c (owns (c : Thread nD τ) scM1 fullShare (scAt V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(others1 c (owns (c : Thread nD τ) scM1 fullShare (scAt V c n hn)) ∗ (∃ r, prngReg c r)) := rfl

theorem Phi1_pos (c : Dev nD) (n : ℕ) (h : n ≤ cfg1.N) (hz : n ≠ 0) :
    Phi1 V c n h = iprop(others1 c (owns (c : Thread nD τ) scM1 fullShare (scAt V c (n - 1) (by omega))) ∗ (∃ r, prngReg c r)) := by
  cases n with
  | zero => exact absurd rfl hz
  | succ n => rfl

/-! ## The region's proof data -/

/-- On core `c`: the arrays as the region finds them; after the body at point `t` each input's buffer at its block and
    the result tile's at the attention of the point's query tile, key block and the scratch as it stands after the
    point; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (scAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point.  At a first tile the invariant hands the scratch at anything (the launch's, or what the last
    tile of the batch before left, forgotten) and takes it back at the point's recast value block; at a later tile it
    hands the scratch at what the point before left, which is what this point leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ,
    after1_0, after1_1, after1_2, after1_3, Phi1_castSucc]
  by_cases h : t.val % 32 = 0
  · rw [scAt_first V c t h]
    have hany : Phi1 V c t.val (Nat.le_of_lt t.isLt) ⊢ iprop(others1 c (iprop(∃ d, owns (c : Thread nD τ) scM1 fullShare d)) ∗ (∃ r, prngReg c r)) := by
      by_cases hz : t.val = 0
      · rw [Phi1_zero V c _ _ hz, PhiA1_eq]
      · rw [Phi1_pos V c _ _ hz]; unfold others1
        iintro ⟨⟨A0, A1, A2, A3, A4, A5, A6, A7, A8, A9, HS⟩, Hg⟩
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexists _; iexact HS
        iexact Hg
    iintro ⟨HΦ, Ho, ⟨%d0, H0⟩, ⟨%d1, H1⟩, ⟨%d2, H2⟩, ⟨%d3, H3⟩⟩
    ihave HΦ' := hany $$ HΦ
    unfold others1
    icases HΦ' with ⟨⟨A0, A1, A2, A3, A4, A5, A6, A7, A8, A9, HS⟩, Hg⟩
    iapply (sound_kernel1_T c Set.univ (grid1.coords t) ((hcond1 t).mpr h) _ _ _ _ _ _ _ _ scM1 (Memref.isWhole_whole _) (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitr [Ho H0 H1 H2 H3]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexact H3
  · have hz : t.val ≠ 0 := fun e => h (by rw [e])
    rw [Phi1_pos V c _ _ hz, scAt_later V c t h]
    unfold others1
    iintro ⟨⟨⟨A0, A1, A2, A3, A4, A5, A6, A7, A8, A9, HS⟩, Hg⟩, Ho, ⟨%d0, H0⟩, ⟨%d1, H1⟩, ⟨%d2, H2⟩, ⟨%d3, H3⟩⟩
    iapply (sound_kernel1_F c Set.univ (grid1.coords t) (fun hc => h ((hcond1 t).mp hc)) _ _ _ _ _ _ _ _ scM1 (Memref.isWhole_whole _) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitr [Ho H0 H1 H2 H3]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: the scratch's named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  unfold others1
  iintro ⟨⟨A0, A1, A2, A3, A4, A5, A6, A7, A8, A9, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexists _; iexact HS
  iexact Hg

end Cert.Kernel.Hand

end
-- ==== Proof.K_Run.lean ====
/-
  The run of the printed kernel's whole program: three stretches of host operations around the two regions.

  The contents of the core's unscoped buffers are followed boundary by boundary from the launch memory: a host
  stretch applies its operations (`W1`, `W3`, `W5`), a region leaves each of its windows' arrays at what its
  write-backs leave and every other buffer as it found it (`W2`, `W4`).  Each region is entered from the buffers at
  the boundary before it and left at the one after it, the generator register and the core owing nothing riding
  along; the second region's invariant carries its scratch.  The run's conclusion: every weakly fair execution
  terminates and every unscoped buffer ends at the last boundary's contents `W5`.  Read at an argument that is the
  launch contents (no stretch writes an argument and no region changes one); read at the result it is the last
  reshape of what the second region left.
-/
import proofs.«136459_j45689862094989_2_alg».proof.Proof.K_R0
import proofs.«136459_j45689862094989_2_alg».proof.Proof.K_R1
import proofs.«136459_j45689862094989_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An unscoped reference of the core is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.KI_R0.lean ====
/-
  The first region of the idealized kernel, the tile-by-tile projection of the hidden states into queries and keys,
  stated at the contents `V` the core's buffers hold when the region is entered.

  The region has seven windows over sixteen grid points: window 0 is a 512-row tile of the flattened hidden states,
  windows 1 and 2 the two transposed weight matrices, windows 3 and 4 the two bias rows (each of these four is the
  same block at every point), and windows 5 and 6 the 512-row tiles of the query and key results.  At a point the
  body reads the five input blocks whole and stores one whole tile into each output block: the query tile is the
  payload of the tile, the first weight matrix and the first bias row, the key tile that of the tile, the second
  weight matrix and the second bias row.  So after the body an output's buffer holds the canonical contents of one
  whole-block store, every input's buffer still holds its block, and nothing else of the core's is touched: the
  region's invariant is the rest of the scoped buffers and the generator register at whatever they hold.
  Everything here is stated at any float instance `F`.
-/
import proofs.«136459_j45689862094989_2_alg».proof.Proof.Gen.KernelIdeal.Launch
import proofs.«136459_j45689862094989_2_alg».proof.Proof.Gen.KernelIdeal.Skeleton
import proofs.«136459_j45689862094989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the pipeline fetched it
    there or not (when it did not, the block's index has not moved since it last did). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_t : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in each output window's buffer -/

/-- The query tile's buffer after the body: one whole store of the projection of the tile by the first weight matrix
    and bias row. -/
def out0_5 (x0 : Vec F S512x1024 .f32) (x1 : Vec F S1024x1024 .bf16) (x3 : Vec F S1x1024 .f32) : Vec F S512x1024 .bf16 :=
  View.canon [⟨r0_t, k0_pay2 (View.ld x0 r0_t) (View.ld x1 r0_w) (View.ld x3 r0_b)⟩]

/-- The key tile's buffer after the body: the same with the second weight matrix and bias row. -/
def out0_6 (x0 : Vec F S512x1024 .f32) (x2 : Vec F S1024x1024 .bf16) (x4 : Vec F S1x1024 .f32) : Vec F S512x1024 .bf16 :=
  View.canon [⟨r0_t, k0_pay3 (View.ld x0 r0_t) (View.ld x2 r0_w) (View.ld x4 r0_b)⟩]

/-- One whole-block store covers the block. -/
theorem cover0_o (p0 : Vec F S512x1024 .bf16) (y : S512x1024.Idx) :
    ∃ pc ∈ ([⟨r0_t, p0⟩] : List (View.Piece (Elt F) S512x1024 .bf16)), y ∈ pc.1.set :=
  View.cover_of_tiled [⟨r0_t, p0⟩] S512x1024.size (by rfl) y

/-! ## The body's triple -/

set_option maxHeartbeats 4000000 in
/-- On whole staging memrefs, the five inputs' at their read contents and the two outputs' at anything, the body runs
    to the continuation holding the inputs' as they were and each output's at its one store. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 : Vec F S1024x1024 .bf16) (x3 x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x3) ∗ owns (c : Thread nD τ) arg7 fullShare (out0_6 x0 x2 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The region's proof data -/

/-- On core `c`: the arrays as the region finds them; after the body at point `t` each input's buffer at its block, the
    query tile's at the projection of the point's blocks by the first matrix and bias, the key tile's by the second;
    the invariant the rest of the scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t)
    | ⟨6, _⟩ => out0_6 (iblk0 V c 0 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 3 t) := by dsimp only [dat0]
theorem after0_6 (c : Dev nD) (t : Fin cfg0.N) : (dat0 V c).after 6 t = out0_6 (iblk0 V c 0 t) (iblk0 V c 2 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_R1.lean ====
/-
  The second region of the idealized kernel, attention for one 128-row query tile at a time, stated at the contents
  `V` the core's buffers hold when the region is entered.

  The grid is 2 batches by 32 query tiles, 64 points, point `t` being tile `t mod 32` of batch `t / 32`.  Window 0 is
  the query tile, windows 1 and 2 the whole key and value blocks of the batch (the same block at all 32 points of a
  batch), window 3 the result tile.  Beside its windows the body has a scratch buffer of the value block's size.  At
  the first tile of a batch (`t mod 32 = 0`) it first stores the value block, recast, whole into the scratch; at every
  point it then reads the query tile, the key block and the SCRATCH, and stores the attention of the three whole into
  the result tile.  So the scratch is carried from point to point: after point `t` it holds the recast value block of
  the batch's first point, `t − t mod 32`, and the result tile holds the attention of the point's query tile, its key
  block and that scratch.  The region's invariant therefore names the scratch's contents after every point; before
  the first point it is the rest of the scoped buffers at anything.
  Everything here is stated at any float instance `F`.
-/
import proofs.«136459_j45689862094989_2_alg».proof.Proof.Gen.KernelIdeal.Launch
import proofs.«136459_j45689862094989_2_alg».proof.Proof.Gen.KernelIdeal.Skeleton
import proofs.«136459_j45689862094989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_q : Rect S1x128x1024 := Rect.unit (s := S1x128x1024) ![0, 0, 0] S1x128x1024.size inb_S1x128x1024_S1x128x1024_0_0_0
abbrev r1_k : Rect S1x4096x1024 := Rect.unit (s := S1x4096x1024) ![0, 0, 0] S1x4096x1024.size inb_S1x4096x1024_S1x4096x1024_0_0_0
abbrev r1_s : Rect S4096x1024 := Rect.unit (s := S4096x1024) ![0, 0] S4096x1024.size inb_S4096x1024_S4096x1024_0_0

/-! ## What the body leaves in the scratch and in the result tile -/

/-- The scratch after a first tile: one whole store of the recast value block. -/
def sc1 (x2 : Vec F S1x4096x1024 .f32) : Vec F S4096x1024 .bf16 :=
  View.canon [⟨r1_s, k1_pay1 (View.ld x2 r1_k)⟩]

/-- The result tile's buffer after the body: one whole store of the attention of the query tile, the key block and
    the scratch's contents. -/
def out1_3 (x0 : Vec F S1x128x1024 .bf16) (x1 : Vec F S1x4096x1024 .bf16) (xs : Vec F S4096x1024 .bf16) : Vec F S1x128x1024 .f32 :=
  View.canon [⟨r1_q, k1_pay2 (View.ld x0 r1_q) (View.ld x1 r1_k) (View.ld xs r1_s)⟩]

theorem cover1_q (p0 : Vec F S1x128x1024 .f32) (y : S1x128x1024.Idx) :
    ∃ pc ∈ ([⟨r1_q, p0⟩] : List (View.Piece (Elt F) S1x128x1024 .f32)), y ∈ pc.1.set :=
  View.cover_of_tiled [⟨r1_q, p0⟩] S1x128x1024.size (by rfl) y

theorem cover1_s (p0 : Vec F S4096x1024 .bf16) (y : S4096x1024.Idx) :
    ∃ pc ∈ ([⟨r1_s, p0⟩] : List (View.Piece (Elt F) S4096x1024 .bf16)), y ∈ pc.1.set :=
  View.cover_of_tiled [⟨r1_s, p0⟩] S4096x1024.size (by rfl) y

/-! ## The body's branch: is this the first tile of its batch? -/

/-- The condition of the body's one conditional, from the grid coordinates. -/
abbrev cond1 (i : grid1.Coords) : Prop := (Scalar.cmpi .ne (Scalar.extui (Scalar.cmpi .eq (BitVec.ofNat 32 (i 1).val) 0#32)) 0#32) = 1#1

/-- It holds at the points ≡ 0 (mod 32), decided over the grid. -/
theorem hcond1 : ∀ t : Fin cfg1.N, cond1 (grid1.coords t) ↔ t.val % 32 = 0 :=
  (by decide +kernel : ∀ t : Fin grid1.N, cond1 (grid1.coords t) ↔ t.val % 32 = 0)

/-! ## The body's triples -/

set_option maxHeartbeats 4000000 in
/-- At a first tile: the three inputs' memrefs at their read contents, the result's and the scratch's at anything; the
    body leaves the scratch at the recast value block and the result tile at the attention over THAT scratch. -/
theorem sound_kernel1_T (c : Dev nD) (E : Set ℕ) (i : grid1.Coords) (hc : cond1 i)
    (arg2 : Memref sig .tc .vmem S1x128x1024 .bf16) (harg2 : arg2.IsWhole) (arg3 : Memref sig .tc .vmem S1x4096x1024 .bf16) (harg3 : arg3.IsWhole)
    (arg4 : Memref sig .tc .vmem S1x4096x1024 .f32) (harg4 : arg4.IsWhole) (arg5 : Memref sig .tc .vmem S1x128x1024 .f32) (harg5 : arg5.IsWhole)
    (arg6 : Memref sig .tc .vmem S4096x1024 .bf16) (harg6 : arg6.IsWhole)
    (x0 : Vec F S1x128x1024 .bf16) (x1 : Vec F S1x4096x1024 .bf16) (x2 : Vec F S1x4096x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 (sc1 x2)) ∗ owns (c : Thread nD τ) arg6 fullShare (sc1 x2)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d6, %f6, -, H6⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_q _)).trans ?_
    sl_unfold_run_names
    unfold out1_3 sc1
    rw [View.readCov_eq_canon_ld _ _ _ (cover1_s _)]
    rfl
  iexists _; isplitr
  swap; · iexact H6
  ipureintro
  sl_unfold_run_names
  exact View.read_writes_eq_canon _ _ _ (cover1_s _)

set_option maxHeartbeats 4000000 in
/-- At a later tile: the scratch's memref too at its read contents `xs`; the body leaves it as it was and the result
    tile at the attention over it. -/
theorem sound_kernel1_F (c : Dev nD) (E : Set ℕ) (i : grid1.Coords) (hc : ¬cond1 i)
    (arg2 : Memref sig .tc .vmem S1x128x1024 .bf16) (harg2 : arg2.IsWhole) (arg3 : Memref sig .tc .vmem S1x4096x1024 .bf16) (harg3 : arg3.IsWhole)
    (arg4 : Memref sig .tc .vmem S1x4096x1024 .f32) (harg4 : arg4.IsWhole) (arg5 : Memref sig .tc .vmem S1x128x1024 .f32) (harg5 : arg5.IsWhole)
    (arg6 : Memref sig .tc .vmem S4096x1024 .bf16) (harg6 : arg6.IsWhole)
    (x0 : Vec F S1x128x1024 .bf16) (x1 : Vec F S1x4096x1024 .bf16) (x2 : Vec F S1x4096x1024 .f32) (xs : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 xs) ∗ owns (c : Thread nD τ) arg6 fullShare xs) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_q _)
  iexists f6; isplitr; · ipureintro; rfl
  iexact H6

/-! ## The scratch point by point, and the region's invariant -/

/-- The scratch operand: a whole scoped buffer of the kernel's own, passed beside the windows. -/
abbrev scM1 : Memref sig .tc .vmem S4096x1024 .bf16 := Memref.whole cc1_scratch0

/-- What the scratch holds after the body at position `n`: the recast value block of the batch's first point. -/
def scAt (c : Dev nD) (n : ℕ) (hn : n < cfg1.N) : Vec F S4096x1024 .bf16 :=
  sc1 (iblk1 V c 2 ⟨n - n % 32, Nat.lt_of_le_of_lt (Nat.sub_le _ _) hn⟩)

/-- At a first tile that is the point's own value block, -/
theorem scAt_first (c : Dev nD) (t : Fin cfg1.N) (h : t.val % 32 = 0) : scAt V c t.val t.isLt = sc1 (iblk1 V c 2 t) := by
  unfold scAt
  exact congrArg (fun t' : Fin cfg1.N => (sc1 (iblk1 V c 2 t') : Vec F S4096x1024 .bf16)) (Fin.ext (by show t.val - t.val % 32 = t.val; omega))

/-- and at a later tile what the point before left. -/
theorem scAt_later (c : Dev nD) (t : Fin cfg1.N) (h : ¬t.val % 32 = 0) :
    scAt V c t.val t.isLt = scAt V c (t.val - 1) (Nat.lt_of_le_of_lt (Nat.sub_le _ _) t.isLt) := by
  unfold scAt
  exact congrArg (fun t' : Fin cfg1.N => (sc1 (iblk1 V c 2 t') : Vec F S4096x1024 .bf16)) (Fin.ext (by show t.val - t.val % 32 = (t.val - 1) - (t.val - 1) % 32; omega))

/-- The scoped buffers that are neither a staging buffer of this region nor its scratch (the first region's staging
    buffers), each at some contents, beside whatever is said of the scratch. -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S)

/-- The class of invariants the launch hands a region, with the scratch as a memref owned at some contents. -/
theorem PhiA1_eq (c : Dev nD) :
    (Pipeline.ΦA spec1 c : sProp 𝕄) = iprop(others1 c (iprop(∃ d, owns (c : Thread nD τ) scM1 fullShare d)) ∗ (∃ r, prngReg c r)) := by
  unfold Pipeline.ΦA others1; rw [scopedRest1_eq]; simp only [scM1, owns_whole]; try rfl

/-- The region's invariant before position `n`: before the first point the launch's; afterwards the scratch at what
    the point before left, the other scoped buffers and the generator register at anything. -/
def Phi1 (c : Dev nD) : (n : ℕ) → n ≤ cfg1.N → sProp 𝕄
  | 0, _ => Pipeline.ΦA spec1 c
  | n + 1, hn => iprop(others1 c (owns (c : Thread nD τ) scM1 fullShare (scAt V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(others1 c (owns (c : Thread nD τ) scM1 fullShare (scAt V c n hn)) ∗ (∃ r, prngReg c r)) := rfl

theorem Phi1_pos (c : Dev nD) (n : ℕ) (h : n ≤ cfg1.N) (hz : n ≠ 0) :
    Phi1 V c n h = iprop(others1 c (owns (c : Thread nD τ) scM1 fullShare (scAt V c (n - 1) (by omega))) ∗ (∃ r, prngReg c r)) := by
  cases n with
  | zero => exact absurd rfl hz
  | succ n => rfl

/-! ## The region's proof data -/

/-- On core `c`: the arrays as the region finds them; after the body at point `t` each input's buffer at its block and
    the result tile's at the attention of the point's query tile, key block and the scratch as it stands after the
    point; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (scAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point.  At a first tile the invariant hands the scratch at anything (the launch's, or what the last
    tile of the batch before left, forgotten) and takes it back at the point's recast value block; at a later tile it
    hands the scratch at what the point before left, which is what this point leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ,
    after1_0, after1_1, after1_2, after1_3, Phi1_castSucc]
  by_cases h : t.val % 32 = 0
  · rw [scAt_first V c t h]
    have hany : Phi1 V c t.val (Nat.le_of_lt t.isLt) ⊢ iprop(others1 c (iprop(∃ d, owns (c : Thread nD τ) scM1 fullShare d)) ∗ (∃ r, prngReg c r)) := by
      by_cases hz : t.val = 0
      · rw [Phi1_zero V c _ _ hz, PhiA1_eq]
      · rw [Phi1_pos V c _ _ hz]; unfold others1
        iintro ⟨⟨A0, A1, A2, A3, A4, A5, A6, A7, A8, A9, HS⟩, Hg⟩
        isplitr [Hg]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexists _; iexact HS
        iexact Hg
    iintro ⟨HΦ, Ho, ⟨%d0, H0⟩, ⟨%d1, H1⟩, ⟨%d2, H2⟩, ⟨%d3, H3⟩⟩
    ihave HΦ' := hany $$ HΦ
    unfold others1
    icases HΦ' with ⟨⟨A0, A1, A2, A3, A4, A5, A6, A7, A8, A9, HS⟩, Hg⟩
    iapply (sound_kernel1_T c Set.univ (grid1.coords t) ((hcond1 t).mpr h) _ _ _ _ _ _ _ _ scM1 (Memref.isWhole_whole _) (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitr [Ho H0 H1 H2 H3]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexact H3
  · have hz : t.val ≠ 0 := fun e => h (by rw [e])
    rw [Phi1_pos V c _ _ hz, scAt_later V c t h]
    unfold others1
    iintro ⟨⟨⟨A0, A1, A2, A3, A4, A5, A6, A7, A8, A9, HS⟩, Hg⟩, Ho, ⟨%d0, H0⟩, ⟨%d1, H1⟩, ⟨%d2, H2⟩, ⟨%d3, H3⟩⟩
    iapply (sound_kernel1_F c Set.univ (grid1.coords t) (fun hc => h ((hcond1 t).mp hc)) _ _ _ _ _ _ _ _ scM1 (Memref.isWhole_whole _) (iblk1 V c 0 t) (iblk1 V c 1 t) (iblk1 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitr [Ho H0 H1 H2 H3]
    · isplitr [Hg]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: the scratch's named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = Phi1 V c (Fin.last cfg1.N).val (Nat.le_of_lt_succ (Fin.last cfg1.N).isLt) from rfl,
    Phi1_pos V c _ _ (by rw [Fin.val_last]; omega), PhiA1_eq]
  unfold others1
  iintro ⟨⟨A0, A1, A2, A3, A4, A5, A6, A7, A8, A9, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexists _; iexact HS
  iexact Hg

end Cert.KernelIdeal.Hand

end
-- ==== Proof.KI_Run.lean ====
/-
  The run of the idealized kernel's whole program: three stretches of host operations around the two regions.

  The contents of the core's unscoped buffers are followed boundary by boundary from the launch memory: a host
  stretch applies its operations (`W1`, `W3`, `W5`), a region leaves each of its windows' arrays at what its
  write-backs leave and every other buffer as it found it (`W2`, `W4`).  Each region is entered from the buffers at
  the boundary before it and left at the one after it, the generator register and the core owing nothing riding
  along; the second region's invariant carries its scratch.  The run's conclusion: every weakly fair execution
  terminates and every unscoped buffer ends at the last boundary's contents `W5`.  Read at an argument that is the
  launch contents (no stretch writes an argument and no region changes one); read at the result it is the last
  reshape of what the second region left.
-/
import proofs.«136459_j45689862094989_2_alg».proof.Proof.KI_R0
import proofs.«136459_j45689862094989_2_alg».proof.Proof.KI_R1
import proofs.«136459_j45689862094989_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- An unscoped reference of the core is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.AttnSpec.lean ====
/-
  The function both programs compute, stated over plain index types and the extended reals.

  A row of a linear layer is `lin x w b = Σ_d x d · w d + b`.  For one query row `q`, the key rows `k` and one
  column `v` of the values, the scores are `score q k j = Σ_d q d · k j d`, the weights are
  `wgt s j = exp (s j − max_j' s j')` (the maximum folded from the pattern of −∞ both programs start from, which
  is never evaluated), and the attention output is the weighted sum of the column divided by the sum of the
  weights (`attn`): the quotient is taken ONCE, after the sum.  `attnRef` is the other arrangement, each weight
  divided by the sum of the weights before it multiplies the column; the two agree when the column is finite
  and the scores are finite (the law itself is proved where it is used).
  `out` composes the two layers and the attention at a batch `b`, a position `s` and a feature `e`, and `G` reads
  it at an index of the result array [2, 4096, 1, 1024].
-/
import Idealize.ShloMosaic.PureOps.Ideal
import Idealize.ShloMosaic.Lib.ValueIdx

noncomputable section

namespace Cert.AttnSpec

open Idealize.ShloMosaic Idealize.ShloMosaic.ValueIdx

/-- The shapes of the arguments and of the result. -/
abbrev SH : Shape := ⟨3, ![2, 4096, 1024]⟩
abbrev SW : Shape := ⟨2, ![1024, 1024]⟩
abbrev SB : Shape := ⟨1, ![1024]⟩
abbrev SO : Shape := ⟨4, ![2, 4096, 1, 1024]⟩

/-- Every entry of a family of extended reals is a real number. -/
def AllReal {ι : Type} (x : ι → EReal) : Prop := ∀ i, x i ≠ ⊥ ∧ x i ≠ ⊤

/-- The f32 pattern of −∞ both programs start a row's maximum from. -/
def negInf : EReal := Ideal.ofBits .f32 0xFF800000#32

/-- One output of a linear layer: the row `x` against the weight row `w`, plus the bias. -/
def lin (x w : Fin 1024 → EReal) (b : EReal) : EReal := (∑ d : Fin 1024, x d * w d) + b

/-- The score of the query row `q` against key row `j`. -/
def score (q : Fin 1024 → EReal) (k : Fin 4096 → Fin 1024 → EReal) (j : Fin 4096) : EReal :=
  ∑ d : Fin 1024, q d * k j d

/-- The maximum of a row of scores, folded from −∞. -/
def rowMax (s : Fin 4096 → EReal) : EReal := (Finset.univ : Finset (Fin 4096)).fold max negInf s

/-- The unnormalised softmax weight of entry `j` of a row of scores. -/
def wgt (s : Fin 4096 → EReal) (j : Fin 4096) : EReal := Ideal.exp (s j - rowMax s)

/-- Attention for one query row and one value column, the quotient taken after the weighted sum. -/
def attn (q : Fin 1024 → EReal) (k : Fin 4096 → Fin 1024 → EReal) (v : Fin 4096 → EReal) : EReal :=
  Ideal.div (∑ j : Fin 4096, wgt (score q k) j * v j) (∑ j : Fin 4096, wgt (score q k) j)

/-- The same with every weight normalised before it multiplies the column. -/
def attnRef (q : Fin 1024 → EReal) (k : Fin 4096 → Fin 1024 → EReal) (v : Fin 4096 → EReal) : EReal :=
  ∑ j : Fin 4096, Ideal.div (wgt (score q k) j) (∑ j' : Fin 4096, wgt (score q k) j') * v j

/-- The projected query (or key) entry at batch `b`, position `s`, feature `e`: row (b, s) of the hidden
    states against row `e` of the weight matrix, plus the bias. -/
def proj (h : SH.Idx → EReal) (W : SW.Idx → EReal) (bias : SB.Idx → EReal) (b : Fin 2) (s : Fin 4096) (e : Fin 1024) : EReal :=
  lin (fun d => h (ix3 b s d)) (fun d => W (ix2 e d)) (bias (ix1 e))

/-- The result at batch `b`, position `s`, feature `e`. -/
def out (h v : SH.Idx → EReal) (Wq : SW.Idx → EReal) (bq : SB.Idx → EReal) (Wk : SW.Idx → EReal) (bk : SB.Idx → EReal)
    (b : Fin 2) (s : Fin 4096) (e : Fin 1024) : EReal :=
  attn (fun d => proj h Wq bq b s d) (fun j d => proj h Wk bk b j d) (fun j => v (ix3 b j e))

/-- The result array, index by index. -/
def G (h v : SH.Idx → EReal) (Wq : SW.Idx → EReal) (bq : SB.Idx → EReal) (Wk : SW.Idx → EReal) (bk : SB.Idx → EReal) :
    SO.Idx → EReal :=
  fun i => out h v Wq bq Wk bk (i 0) (i 1) (i 3)

end Cert.AttnSpec

end
-- ==== Proof.PayProj.lean ====
/-
  The projection kernel's two stored tiles read at an index, on the extended reals.

  Each tile is a 512-row block of the hidden states times a [1024, 1024] matrix (the weight, already
  transposed, so that the contraction runs over the matrix's ROWS), plus the bias row broadcast over the
  512 rows.  On the extended reals the changes of format are the identity and the product into a zero
  accumulator is the plain sum over the contraction index, so entry (r, e) of a tile is
  `Σ_d x[r, d] · w[d, e] + b[0, e]`, which is the linear layer `lin` of the shared specification.
-/
import proofs.«136459_j45689862094989_2_alg».proof.Proof.Gen.KernelIdeal.Skeleton
import proofs.«136459_j45689862094989_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The left operand's index of the [512,1024] × [1024,1024] product: its row is the result's row, -/
theorem projDot_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- its column the contraction index. -/
theorem projDot_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's index: its row is the contraction index, -/
theorem projDot_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- its column the result's column. -/
theorem projDot_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product of a [512, 1024] block and a [1024, 1024] matrix into a zero accumulator, at (r, e): the sum over
    `d` of the block at (r, d) times the matrix at (d, e). -/
theorem projMatmul_apply (a : FVec Ideal S512x1024 .bf16) (w : FVec Ideal S1024x1024 .bf16) (r : Fin 512) (e : Fin 1024) :
    matmul dot_S512x1024_S1024x1024_S512x1024_1_0_0_1_n_n none a w (constant S512x1024 .f32 0x00000000#32) (ix2 r e)
      = ∑ d : Fin 1024, a (ix2 r d) * w (ix2 d e) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e)
      ((contrEquiv1 dot_S512x1024_S1024x1024_S512x1024_1_0_0_1_n_n 1024 rfl rfl).symm k) = ix2 r k :=
    funext fun c => Fin.ext (by
      match c with
      | ⟨0, _⟩ => exact projDot_lhs_0 _ _
      | ⟨1, _⟩ => exact (projDot_lhs_1 _ _).trans hk)
  have er : dot_S512x1024_S1024x1024_S512x1024_1_0_0_1_n_n.rhsIdx (ix2 r e)
      ((contrEquiv1 dot_S512x1024_S1024x1024_S512x1024_1_0_0_1_n_n 1024 rfl rfl).symm k) = ix2 k e :=
    funext fun c => Fin.ext (by
      match c with
      | ⟨0, _⟩ => exact (projDot_rhs_0 _ _).trans hk
      | ⟨1, _⟩ => exact projDot_rhs_1 _ _)
  rw [el, er]

/-- The query projection's stored tile at (r, e) is the linear layer of row `r` of the hidden-state block against
    column `e` of the matrix, plus the bias at `e`. -/
theorem pay2_apply (x0 : Vec Ideal S512x1024 .f32) (w : Vec Ideal S1024x1024 .bf16) (b : Vec Ideal S1x1024 .f32)
    (r : Fin 512) (e : Fin 1024) :
    Gen.k0_pay2 (F := Ideal) x0 w b (ix2 r e)
      = Cert.AttnSpec.lin (fun d => x0 (ix2 r d)) (fun d => w (ix2 d e)) (b (ix2 (0 : Fin 1) e)) := by
  unfold Gen.k0_pay2 Gen.k0_pay1 Cert.AttnSpec.lin
  rw [truncf_apply, addf_apply, shapeCast_self, shapeCast_self, shapeCast_self, projMatmul_apply,
    broadcastTo_1b_ab_apply]
  rfl

/-- The key projection's stored tile likewise. -/
theorem pay3_apply (x0 : Vec Ideal S512x1024 .f32) (w : Vec Ideal S1024x1024 .bf16) (b : Vec Ideal S1x1024 .f32)
    (r : Fin 512) (e : Fin 1024) :
    Gen.k0_pay3 (F := Ideal) x0 w b (ix2 r e)
      = Cert.AttnSpec.lin (fun d => x0 (ix2 r d)) (fun d => w (ix2 d e)) (b (ix2 (0 : Fin 1) e)) := by
  unfold Gen.k0_pay3 Gen.k0_pay1 Cert.AttnSpec.lin
  rw [truncf_apply, addf_apply, shapeCast_self, shapeCast_self, shapeCast_self, projMatmul_apply,
    broadcastTo_1b_ab_apply]
  rfl

end Cert.KernelIdeal.Pay

end
-- ==== Proof.KI_Val0.lean ====
/-
  The projection region's two result arrays after all sixteen grid points, as one function of the arrays the
  region finds, index by index, on the extended reals.

  Point `t` reads rows `512 t … 512 t + 511` of the flattened hidden states, the whole of a weight matrix and of
  a bias row, and writes back rows `512 t … 512 t + 511` of a result array; entry (r, e) of what it writes is the
  linear layer of row `r` of its tile against column `e` of the matrix, plus the bias at `e`.  A tile's row `r`
  is row `512 t + r` of the hidden states, so what point `t` writes back is block `t` of the one array whose entry
  (r, e) is `Σ_d x[r, d] · w[d, e] + b[0, e]` (`projAt`); the sixteen blocks tile the 8192 rows (row `r` is in
  block `r / 512`), so the result array ends holding that function everywhere.
-/
import proofs.«136459_j45689862094989_2_alg».proof.Proof.KI_R0
import proofs.«136459_j45689862094989_2_alg».proof.Proof.PayProj
import proofs.«136459_j45689862094989_2_alg».proof.Proof.AttnSpec
import Idealize.ShloMosaic.Lib.Pipeline.Value
import Idealize.ShloMosaic.Lib.ValueIdx

noncomputable section

namespace Cert.KernelIdeal.Val0

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem zeroOff : (![0, 0] : Fin 2 → Nat) = fun _ => 0 := funext fun a => by fin_cases a <;> rfl

/-- Entry (r, e) of a projection: row `r` of the hidden states against column `e` of the matrix, plus the bias at `e`. -/
def projAt (x : S8192x1024.Idx → EReal) (w : S1024x1024.Idx → EReal) (b : S1x1024.Idx → EReal) (r : Fin 8192) (e : Fin 1024) : EReal :=
  Cert.AttnSpec.lin (fun d => x (ix2 r d)) (fun d => w (ix2 d e)) (b (ix2 (0 : Fin 1) e))

/-- The block index maps over the grid: the hidden-state tile and the two result tiles are at block row `t`, column
    block 0; the matrices and bias rows are block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks read off the arrays -/

/-- The hidden-state tile at point `t`: its entry (r, d) is the array's at (512 t + r, d). -/
theorem tileBlock_apply (c : Dev nD) (t : Fin cfg0.N) (y : S512x1024.Idx) (i : S8192x1024.Idx)
    (h0 : (i 0).val = t.val * 512 + (y 0).val) (h1 : (i 1).val = (y 1).val) :
    (iblk0 V c 0 t : Vec Ideal S512x1024 .f32) y = (V c main_v6 : S8192x1024.Idx → EReal) i := by
  obtain ⟨e0, e1, -⟩ := index_facts t
  unfold iblk0
  rw [View.read_apply]
  show V c main_v6 (((cfg0.win 0).blk t).view.emb y) = V c main_v6 i
  refine congrArg (V c main_v6) (funext fun a => Fin.ext ?_)
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The query weight block at any point is the whole matrix. -/
theorem qWeightBlock_apply (c : Dev nD) (t : Fin cfg0.N) (y : S1024x1024.Idx) :
    (iblk0 V c 1 t : Vec Ideal S1024x1024 .bf16) y = (V c main_v1 : S1024x1024.Idx → EReal) y := by
  obtain ⟨-, -, e0, e1, -⟩ := index_facts t
  unfold iblk0
  rw [View.read_apply]
  show V c main_v1 (((cfg0.win 1).blk t).view.emb y) = V c main_v1 y
  refine congrArg (V c main_v1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The key weight block likewise. -/
theorem kWeightBlock_apply (c : Dev nD) (t : Fin cfg0.N) (y : S1024x1024.Idx) :
    (iblk0 V c 2 t : Vec Ideal S1024x1024 .bf16) y = (V c main_v3 : S1024x1024.Idx → EReal) y := by
  obtain ⟨-, -, -, -, e0, e1, -⟩ := index_facts t
  unfold iblk0
  rw [View.read_apply]
  show V c main_v3 (((cfg0.win 2).blk t).view.emb y) = V c main_v3 y
  refine congrArg (V c main_v3) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The query bias block at any point is the whole row. -/
theorem qBiasBlock_apply (c : Dev nD) (t : Fin cfg0.N) (y : S1x1024.Idx) :
    (iblk0 V c 3 t : Vec Ideal S1x1024 .f32) y = (V c main_v4 : S1x1024.Idx → EReal) y := by
  obtain ⟨-, -, -, -, -, -, e0, e1, -⟩ := index_facts t
  unfold iblk0
  rw [View.read_apply]
  show V c main_v4 (((cfg0.win 3).blk t).view.emb y) = V c main_v4 y
  refine congrArg (V c main_v4) (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The key bias block likewise. -/
theorem kBiasBlock_apply (c : Dev nD) (t : Fin cfg0.N) (y : S1x1024.Idx) :
    (iblk0 V c 4 t : Vec Ideal S1x1024 .f32) y = (V c main_v5 : S1x1024.Idx → EReal) y := by
  obtain ⟨-, -, -, -, -, -, -, -, e0, e1, -⟩ := index_facts t
  unfold iblk0
  rw [View.read_apply]
  show V c main_v5 (((cfg0.win 4).blk t).view.emb y) = V c main_v5 y
  refine congrArg (V c main_v5) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-! ## A stored tile as a block of the projection -/

/-- A tile whose entries are the linear layer of its three blocks, the first block being rows `512 n …` of `X` and the
    other two the whole of `W` and `B`, is at block index `y` the projection of `X`, `W`, `B` at the array index `i` in
    row `512 n + y 0`, column `y 1`. -/
theorem projTile_apply
    (pay : Vec Ideal S512x1024 .f32 → Vec Ideal S1024x1024 .bf16 → Vec Ideal S1x1024 .f32 → FVec Ideal S512x1024 .bf16)
    (hpay : ∀ (x0 : Vec Ideal S512x1024 .f32) (w : Vec Ideal S1024x1024 .bf16) (b : Vec Ideal S1x1024 .f32) (r : Fin 512) (e : Fin 1024),
      pay x0 w b (ix2 r e) = Cert.AttnSpec.lin (fun d => x0 (ix2 r d)) (fun d => w (ix2 d e)) (b (ix2 (0 : Fin 1) e)))
    (x0 : Vec Ideal S512x1024 .f32) (w : Vec Ideal S1024x1024 .bf16) (b : Vec Ideal S1x1024 .f32)
    (X : S8192x1024.Idx → EReal) (W : S1024x1024.Idx → EReal) (B : S1x1024.Idx → EReal) (n : ℕ)
    (hx : ∀ (y : S512x1024.Idx) (i : S8192x1024.Idx), (i 0).val = n * 512 + (y 0).val → (i 1).val = (y 1).val → x0 y = X i)
    (hw : ∀ y : S1024x1024.Idx, w y = W y) (hb : ∀ y : S1x1024.Idx, b y = B y)
    (y : S512x1024.Idx) (i : S8192x1024.Idx) (hi0 : (i 0).val = n * 512 + (y 0).val) (hi1 : (i 1).val = (y 1).val) :
    pay x0 w b y = projAt X W B (i 0) (i 1) := by
  obtain ⟨r, e, rfl⟩ : ∃ (r : Fin 512) (e : Fin 1024), y = ix2 r e := ⟨y 0, y 1, eq_ix2 y⟩
  obtain ⟨r', e', rfl⟩ : ∃ (r' : Fin 8192) (e' : Fin 1024), i = ix2 r' e' := ⟨i 0, i 1, eq_ix2 i⟩
  have he : e' = e := Fin.ext hi1
  subst he
  rw [hpay]
  show _ = Cert.AttnSpec.lin (fun d => X (ix2 r' d)) (fun d => W (ix2 d e')) (B (ix2 (0 : Fin 1) e'))
  have h1 : (fun d : Fin 1024 => x0 (ix2 r d)) = fun d => X (ix2 r' d) := funext fun d => hx _ _ hi0 rfl
  have h2 : (fun d : Fin 1024 => w (ix2 d e')) = fun d => W (ix2 d e') := funext fun d => hw _
  rw [h1, h2, hb]

/-! ## What a point writes back -/

/-- Point `t` writes back block `t` of the query projection of the arrays the region finds. -/
theorem flushed5_eq (c : Dev nD) (t : Fin cfg0.N) :
    (dat0 V c).flushed 5 t = ((cfg0.win 5).blk t).view.read (Elt Ideal)
      (fun i => projAt (V c main_v6) (V c main_v1) (V c main_v4) (i 0) (i 1)) := by
  show (cfg0.win 5).cut (grid0.coords t) ((dat0 V c).after 5 t) = _
  rw [after0_5]
  unfold out0_5
  rw [View.canon_unit_zero zeroOff]
  simp only [View.ld_unit_zero (S := S512x1024) zeroOff, View.ld_unit_zero (S := S1024x1024) zeroOff, View.ld_unit_zero (S := S1x1024) zeroOff]
  obtain ⟨-, -, -, -, -, -, -, -, -, -, e0, e1, -⟩ := index_facts t
  funext j
  show k0_pay2 (F := Ideal) (iblk0 V c 0 t) (iblk0 V c 1 t) (iblk0 V c 3 t) j
    = projAt (V c main_v6) (V c main_v1) (V c main_v4) ((((cfg0.win 5).blk t).view.emb j) 0) ((((cfg0.win 5).blk t).view.emb j) 1)
  refine projTile_apply k0_pay2 Cert.KernelIdeal.Pay.pay2_apply _ _ _ _ _ _ t.val
    (fun y i h0 h1 => tileBlock_apply V c t y i h0 h1) (fun y => qWeightBlock_apply V c t y) (fun y => qBiasBlock_apply V c t y) j _ ?_ ?_
  · show win0_5.index t (0 : Fin 2) * 512 + 1 * (j 0).val = t.val * 512 + (j 0).val; omega
  · show win0_5.index t (1 : Fin 2) * 1024 + 1 * (j 1).val = (j 1).val; omega

/-- Point `t` writes back block `t` of the key projection of the arrays the region finds. -/
theorem flushed6_eq (c : Dev nD) (t : Fin cfg0.N) :
    (dat0 V c).flushed 6 t = ((cfg0.win 6).blk t).view.read (Elt Ideal)
      (fun i => projAt (V c main_v6) (V c main_v3) (V c main_v5) (i 0) (i 1)) := by
  show (cfg0.win 6).cut (grid0.coords t) ((dat0 V c).after 6 t) = _
  rw [after0_6]
  unfold out0_6
  rw [View.canon_unit_zero zeroOff]
  simp only [View.ld_unit_zero (S := S512x1024) zeroOff, View.ld_unit_zero (S := S1024x1024) zeroOff, View.ld_unit_zero (S := S1x1024) zeroOff]
  obtain ⟨-, -, -, -, -, -, -, -, -, -, -, -, e0, e1⟩ := index_facts t
  funext j
  show k0_pay3 (F := Ideal) (iblk0 V c 0 t) (iblk0 V c 2 t) (iblk0 V c 4 t) j
    = projAt (V c main_v6) (V c main_v3) (V c main_v5) ((((cfg0.win 6).blk t).view.emb j) 0) ((((cfg0.win 6).blk t).view.emb j) 1)
  refine projTile_apply k0_pay3 Cert.KernelIdeal.Pay.pay3_apply _ _ _ _ _ _ t.val
    (fun y i h0 h1 => tileBlock_apply V c t y i h0 h1) (fun y => kWeightBlock_apply V c t y) (fun y => kBiasBlock_apply V c t y) j _ ?_ ?_
  · show win0_6.index t (0 : Fin 2) * 512 + 1 * (j 0).val = t.val * 512 + (j 0).val; omega
  · show win0_6.index t (1 : Fin 2) * 1024 + 1 * (j 1).val = (j 1).val; omega

/-! ## The blocks tile the result arrays -/

/-- An index of the query result is in point `t`'s block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_0).slice (win0_5.rect t)).set ↔ _
  rw [View.set_slice_whole, Rect.mem_set_unit]
  exact Iff.rfl

/-- The same for the key result. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_1).slice (win0_6.rect t)).set ↔ _
  rw [View.set_slice_whole, Rect.mem_set_unit]
  exact Iff.rfl

/-- Row `r` of the query result is in the block of point `r / 512`. -/
theorem cover5 (i : S8192x1024.Idx) : ∃ t : Fin cfg0.N, (cfg0.win 5).flush t = true ∧ i ∈ ((cfg0.win 5).blk t).view.set := by
  have hN : grid0.N = 16 := N_0
  have hi0 : (i 0).val < 8192 := (i 0).isLt
  have hi1 : (i 1).val < 1024 := (i 1).isLt
  let t : Fin cfg0.N := ⟨(i 0).val / 512, by show (i 0).val / 512 < grid0.N; omega⟩
  obtain ⟨-, -, -, -, -, -, -, -, -, -, e0, e1, -⟩ := index_facts t
  have ht : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- Row `r` of the key result likewise. -/
theorem cover6 (i : S8192x1024.Idx) : ∃ t : Fin cfg0.N, (cfg0.win 6).flush t = true ∧ i ∈ ((cfg0.win 6).blk t).view.set := by
  have hN : grid0.N = 16 := N_0
  have hi0 : (i 0).val < 8192 := (i 0).isLt
  have hi1 : (i 1).val < 1024 := (i 1).isLt
  let t : Fin cfg0.N := ⟨(i 0).val / 512, by show (i 0).val / 512 < grid0.N; omega⟩
  obtain ⟨-, -, -, -, -, -, -, -, -, -, -, -, e0, e1⟩ := index_facts t
  have ht : t.val = (i 0).val / 512 := rfl
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-! ## The result arrays after the region -/

/-- The query result array after all points: the projection by the first matrix and bias, at every index. -/
theorem final0_5 (c : Dev nD) :
    (dat0 V c).arrAt 5 cfg0.N = (fun i => projAt (V c main_v6) (V c main_v1) (V c main_v4) (i 0) (i 1)) :=
  (dat0 V c).arrAt_eq_of_cover 5 _ (fun t _ => flushed5_eq V c t) cover5

/-- The key result array after all points: the projection by the second matrix and bias, at every index. -/
theorem final0_6 (c : Dev nD) :
    (dat0 V c).arrAt 6 cfg0.N = (fun i => projAt (V c main_v6) (V c main_v3) (V c main_v5) (i 0) (i 1)) :=
  (dat0 V c).arrAt_eq_of_cover 6 _ (fun t _ => flushed6_eq V c t) cover6

end Cert.KernelIdeal.Val0

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.PayAttn.lean ====
/-
  The attention kernel's two stored values read at an index, on the extended reals.

  The value block is copied, its leading unit axis dropped: entry (j, e) of the copy is entry (0, j, e) of the block.

  For a 128-row query tile `q`, the 4096 key rows `k` and the copied values `s`, the kernel takes the scores
  `S[r, j] = Σ_d q[r, d] · k[j, d]`, each row's maximum `m[r]` folded from the pattern of −∞, the weights
  `P[r, j] = exp (S[r, j] − m[r])`, each row's sum `l[r] = Σ_j P[r, j]`, the products
  `A[r, e] = Σ_j P[r, j] · s[j, e]`, and stores `A[r, e] / l[r]`: the quotient is taken once, after the weighted sum.
  On the extended reals the changes of format are the identity, a product into a zero accumulator is the plain sum over
  the contraction index, the lane reductions are the sum and the fold of `max` over a row, and the keep-dimensions
  column forms read the vector at the row.  So entry (0, r, e) of the stored tile is `attn` of the shared
  specification at row `r` of the queries, the keys, and column `e` of the values.
-/
import proofs.«136459_j45689862094989_2_alg».proof.Proof.Gen.KernelIdeal.Skeleton
import proofs.«136459_j45689862094989_2_alg».proof.Proof.AttnSpec
import Idealize.ShloMosaic.Lib.ValueIdx
import Idealize.ShloMosaic.Lib.Pipeline.Value
import Idealize.ShloMosaic.Lib.ValueLayout
import Idealize.ShloMosaic.PureOps.Ideal.Laws
import proofs.«136459_j45689862094989_2_alg».proof.Proof.LibRowForms

noncomputable section

namespace Cert.KernelIdeal.Pay

open Cert.KernelIdeal Cert.KernelIdeal.Gen Idealize.ShloMosaic Idealize.ShloMosaic.ValueIdx
open scoped BigOperators

/-! ## The copy of the value block -/

/-- Entry (j, e) of the copied value block is entry (0, j, e) of the block. -/
theorem pay1_apply (v : Vec Ideal S1x4096x1024 .f32) (j : Fin 4096) (e : Fin 1024) :
    Gen.k1_pay1 (F := Ideal) v (ix2 j e) = v (ix3 (0 : Fin 1) j e) := by
  unfold Gen.k1_pay1
  rw [shapeCast_self, truncf_apply, shapeCast_1ab_ab_apply]

/-! ## The two products at an index -/

/-- The left operand's index of the [128,1024] × [4096,1024] product contracted over both operands' columns: its row
    is the result's row, -/
theorem scoreDot_lhs_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide),
    dif_pos (show (0 : Fin S128x1024.rank) ∈ dot_S128x1024_S4096x1024_S128x4096_1_1_0_0_n_n.lhsNonContracting by decide)]
  rfl

/-- its column the contraction index. -/
theorem scoreDot_lhs_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q

/-- The right operand's index: its row is the result's column, -/
theorem scoreDot_rhs_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide),
    dif_pos (show (0 : Fin S4096x1024.rank) ∈ dot_S128x1024_S4096x1024_S128x4096_1_1_0_0_n_n.rhsNonContracting by decide)]
  rfl

/-- its column the contraction index. -/
theorem scoreDot_rhs_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- The product of a [128, 1024] block and the transpose of a [4096, 1024] block into a zero accumulator, at (r, j):
    the sum over `d` of the first at (r, d) times the second at (j, d). -/
theorem scoreMatmul_apply (a : FVec Ideal S128x1024 .bf16) (k : FVec Ideal S4096x1024 .bf16) (r : Fin 128) (j : Fin 4096) :
    matmul dot_S128x1024_S4096x1024_S128x4096_1_1_0_0_n_n none a k (constant S128x4096 .f32 0x00000000#32) (ix2 r j)
      = ∑ d : Fin 1024, a (ix2 r d) * k (ix2 j d) := by
  simp only [matmul]
  rw [Ideal.matmul_constant_zero_apply,
    ← Equiv.sum_comp (contrEquiv1 dot_S128x1024_S4096x1024_S128x4096_1_1_0_0_n_n 1024 rfl rfl).symm]
  refine Finset.sum_congr rfl fun d _ => ?_
  have hd := contrEquiv1_symm_val dot_S128x1024_S4096x1024_S128x4096_1_1_0_0_n_n 1024 rfl rfl d
  have el : dot_S128x1024_S4096x1024_S128x4096_1_1_0_0_n_n.lhsIdx (ix2 r j)
      ((contrEquiv1 dot_S128x1024_S4096x1024_S128x4096_1_1_0_0_n_n 1024 rfl rfl).symm d) = ix2 r d :=
    funext fun c => Fin.ext (by
      match c with
      | ⟨0, _⟩ => exact scoreDot_lhs_0 _ _
      | ⟨1, _⟩ => exact (scoreDot_lhs_1 _ _).trans hd)
  have er : dot_S128x1024_S4096x1024_S128x4096_1_1_0_0_n_n.rhsIdx (ix2 r j)
      ((contrEquiv1 dot_S128x1024_S4096x1024_S128x4096_1_1_0_0_n_n 1024 rfl rfl).symm d) = ix2 j d :=
    funext fun c => Fin.ext (by
      match c with
      | ⟨0, _⟩ => exact scoreDot_rhs_0 _ _
      | ⟨1, _⟩ => exact (scoreDot_rhs_1 _ _).trans hd)
  rw [el, er]

/-- The left operand's index of the [128,4096] × [4096,1024] product: its row is the result's row, -/
theorem valueDot_lhs_0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl

/-- its column the contraction index. -/
theorem valueDot_lhs_1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q

/-- The right operand's index: its row is the contraction index, -/
theorem valueDot_rhs_0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q

/-- its column the result's column. -/
theorem valueDot_rhs_1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- The product of a [128, 4096] block and a [4096, 1024] block into a zero accumulator, at (r, e): the sum over `j`
    of the first at (r, j) times the second at (j, e). -/
theorem valueMatmul_apply (p : FVec Ideal S128x4096 .bf16) (s : FVec Ideal S4096x1024 .bf16) (r : Fin 128) (e : Fin 1024) :
    matmul dot_S128x4096_S4096x1024_S128x1024_1_0_0_1_n_n none p s (constant S128x1024 .f32 0x00000000#32) (ix2 r e)
      = ∑ j : Fin 4096, p (ix2 r j) * s (ix2 j e) := by
  simp only [matmul]
  rw [Ideal.matmul_constant_zero_apply,
    ← Equiv.sum_comp (contrEquiv1 dot_S128x4096_S4096x1024_S128x1024_1_0_0_1_n_n 4096 rfl rfl).symm]
  refine Finset.sum_congr rfl fun j _ => ?_
  have hj := contrEquiv1_symm_val dot_S128x4096_S4096x1024_S128x1024_1_0_0_1_n_n 4096 rfl rfl j
  have el : dot_S128x4096_S4096x1024_S128x1024_1_0_0_1_n_n.lhsIdx (ix2 r e)
      ((contrEquiv1 dot_S128x4096_S4096x1024_S128x1024_1_0_0_1_n_n 4096 rfl rfl).symm j) = ix2 r j :=
    funext fun c => Fin.ext (by
      match c with
      | ⟨0, _⟩ => exact valueDot_lhs_0 _ _
      | ⟨1, _⟩ => exact (valueDot_lhs_1 _ _).trans hj)
  have er : dot_S128x4096_S4096x1024_S128x1024_1_0_0_1_n_n.rhsIdx (ix2 r e)
      ((contrEquiv1 dot_S128x4096_S4096x1024_S128x1024_1_0_0_1_n_n 4096 rfl rfl).symm j) = ix2 j e :=
    funext fun c => Fin.ext (by
      match c with
      | ⟨0, _⟩ => exact (valueDot_rhs_0 _ _).trans hj
      | ⟨1, _⟩ => exact valueDot_rhs_1 _ _)
  rw [el, er]

/-! ## The stages of the attention tile -/

/-- The scores of the query tile against the keys. -/
def scores (q : Vec Ideal S1x128x1024 .bf16) (k : Vec Ideal S1x4096x1024 .bf16) : FVec Ideal S128x4096 .f32 :=
  matmul dot_S128x1024_S4096x1024_S128x4096_1_1_0_0_n_n none
    (shapeCast S128x1024 q shapeCasts_S1x128x1024_S128x1024 : FVec Ideal S128x1024 .bf16)
    (shapeCast S4096x1024 k shapeCasts_S1x4096x1024_S4096x1024 : FVec Ideal S4096x1024 .bf16)
    (constant S128x4096 .f32 0x00000000#32)

/-- Each row's maximum, from the pattern of −∞. -/
def rowMaxV (sc : FVec Ideal S128x4096 .f32) : FVec Ideal S128 .f32 :=
  multiReduction .maximumf [1] S128 sc 0xFF800000#32 reduces_S128x4096_S128 (.inl rfl) rfl

/-- The weights: the exponential of each score less its row's maximum. -/
def weights (sc : FVec Ideal S128x4096 .f32) : FVec Ideal S128x4096 .f32 :=
  exp (subf sc (broadcastTo S128x4096 (shapeCast S128x1 (rowMaxV sc) shapeCasts_S128_S128x1) broadcasts_S128x1_S128x4096))

/-- Each row's sum of weights. -/
def rowSumV (w : FVec Ideal S128x4096 .f32) : FVec Ideal S128 .f32 :=
  multiReduction .add [1] S128 w 0x00000000#32 reduces_S128x4096_S128 (.inl rfl) rfl

/-- The stored tile is the weighted sum of the values divided by the broadcast row sums, in these stages. -/
theorem pay2_eq_stages (q : Vec Ideal S1x128x1024 .bf16) (k : Vec Ideal S1x4096x1024 .bf16) (s : Vec Ideal S4096x1024 .bf16) :
    Gen.k1_pay2 (F := Ideal) q k s
      = shapeCast S1x128x1024
          (divf
            (matmul (φ₁ := .bf16) (φ₂ := .bf16) dot_S128x4096_S4096x1024_S128x1024_1_0_0_1_n_n none
              (truncf .bf16 (weights (scores q k)) bitsLt_bf16_f32) s (constant S128x1024 .f32 0x00000000#32))
            (broadcastTo S128x1024 (shapeCast S128x1 (rowSumV (weights (scores q k))) shapeCasts_S128_S128x1)
              broadcasts_S128x1_S128x1024))
          shapeCasts_S128x1024_S1x128x1024 := rfl

/-- A score: the query row against the key row. -/
theorem scores_apply (q : Vec Ideal S1x128x1024 .bf16) (k : Vec Ideal S1x4096x1024 .bf16) (r : Fin 128) (j : Fin 4096) :
    scores q k (ix2 r j)
      = Cert.AttnSpec.score (fun d => q (ix3 (0 : Fin 1) r d)) (fun j d => k (ix3 (0 : Fin 1) j d)) j := by
  unfold scores Cert.AttnSpec.score
  rw [scoreMatmul_apply]
  refine Finset.sum_congr rfl fun d _ => ?_
  rw [shapeCast_1ab_ab_apply, shapeCast_1ab_ab_apply]

/-- A row's maximum: the fold of `max` from −∞ over the row. -/
theorem rowMaxV_apply (sc : FVec Ideal S128x4096 .f32) (r : Fin 128) :
    rowMaxV sc (ix1 r) = Cert.AttnSpec.rowMax (fun j => sc (ix2 r j)) := by
  unfold rowMaxV Cert.AttnSpec.rowMax Cert.AttnSpec.negInf
  refine (Ideal.multiReduction_maximumf_single sc _ reduces_S128x4096_S128 _ _ (ix1 r)).trans ?_
  refine congrArg (fun f => (Finset.univ : Finset (Fin 4096)).fold max (Ideal.ofBits .f32 0xFF800000#32) f) ?_
  funext j
  refine congrArg sc ?_
  funext c; apply Fin.ext
  match c with
  | ⟨0, _⟩ => rfl
  | ⟨1, _⟩ => rfl

/-- A weight: the exponential of the score less the row's maximum. -/
theorem weights_apply (sc : FVec Ideal S128x4096 .f32) (r : Fin 128) (j : Fin 4096) :
    weights sc (ix2 r j) = Cert.AttnSpec.wgt (fun j => sc (ix2 r j)) j := by
  unfold weights Cert.AttnSpec.wgt
  show Ideal.exp (subf sc _ (ix2 r j)) = _
  rw [subf_apply, Cert.LibRowForms.broadcastTo_a1_ab_apply, Cert.LibRowForms.shapeCast_a_a1_apply, rowMaxV_apply]

/-- A row's sum of weights. -/
theorem rowSumV_apply (w : FVec Ideal S128x4096 .f32) (r : Fin 128) :
    rowSumV w (ix1 r) = ∑ j : Fin 4096, w (ix2 r j) :=
  Cert.LibRowForms.laneSum_apply w _ reduces_S128x4096_S128 _ _ r

/-- Entry (0, r, e) of the stored tile is the attention of query row `r` against the keys and column `e` of the
    values, the quotient taken after the weighted sum. -/
theorem pay2_attn_apply (q : Vec Ideal S1x128x1024 .bf16) (k : Vec Ideal S1x4096x1024 .bf16) (s : Vec Ideal S4096x1024 .bf16)
    (r : Fin 128) (e : Fin 1024) :
    Gen.k1_pay2 (F := Ideal) q k s (ix3 (0 : Fin 1) r e)
      = Cert.AttnSpec.attn (fun d => q (ix3 (0 : Fin 1) r d)) (fun j d => k (ix3 (0 : Fin 1) j d)) (fun j => s (ix2 j e)) := by
  rw [pay2_eq_stages, shapeCast_ab_1ab_apply, divf_apply, valueMatmul_apply,
    Cert.LibRowForms.broadcastTo_a1_ab_apply, Cert.LibRowForms.shapeCast_a_a1_apply, rowSumV_apply]
  unfold Cert.AttnSpec.attn
  have hw : ∀ j : Fin 4096, weights (scores q k) (ix2 r j)
      = Cert.AttnSpec.wgt (Cert.AttnSpec.score (fun d => q (ix3 (0 : Fin 1) r d)) (fun j d => k (ix3 (0 : Fin 1) j d))) j := by
    intro j
    rw [weights_apply]
    refine congrArg (fun f => Cert.AttnSpec.wgt f j) ?_
    funext j'
    exact scores_apply q k r j'
  refine congrArg₂ Ideal.div ?_ ?_
  · refine Finset.sum_congr rfl fun j _ => ?_
    rw [truncf_apply, hw j]
  · exact Finset.sum_congr rfl fun j _ => hw j

end Cert.KernelIdeal.Pay

end
-- ==== Proof.KI_Val1.lean ====
/-
  The attention region's result array after all its grid points, as one function of the arrays the region finds.

  The grid has 2 × 32 points; point `t` is query tile `t mod 32` of batch `t / 32`.  The query window's block at `t`
  is rows `128 · (t mod 32) …` of batch `t / 32` of the projected queries, the key and value windows' blocks are the
  whole batch `t / 32` of the projected keys and of the values, and the result window's block is the same rows of the
  same batch of the result.  The scratch the body reads holds the recast value block of the batch's first point,
  `t − t mod 32`, which is the same batch.  So what point `t` writes back is the restriction to its block of ONE
  function of the whole arrays: entry (b, s, e) is the attention of query row (b, s), the key rows of batch `b` and
  column `e` of the values of batch `b`.  The 64 blocks tile the result array (row `s` of batch `b` is in the block
  of point `32 b + s / 128`), and every point writes back, so the array ends holding that function.
-/
import proofs.«136459_j45689862094989_2_alg».proof.Proof.KI_R1
import proofs.«136459_j45689862094989_2_alg».proof.Proof.PayAttn
import proofs.«136459_j45689862094989_2_alg».proof.Proof.AttnSpec
import Idealize.ShloMosaic.Lib.Pipeline.Value

set_option maxRecDepth 16384

noncomputable section

namespace Cert.KernelIdeal.Val1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The function the result array ends holding -/

/-- Attention at batch `b`, query row `s`, feature `e`, of whole arrays of queries, keys and values. -/
def attnAt (q k v : S2x4096x1024.Idx → EReal) (b : Fin 2) (s : Fin 4096) (e : Fin 1024) : EReal :=
  Cert.AttnSpec.attn (fun d => q (ix3 b s d)) (fun j d => k (ix3 b j d)) (fun j => v (ix3 b j e))

/-! ## The index maps over the grid -/

/-- Every window's block index at point `t`: batch `t / 32`; the query and result tiles `t mod 32`. -/
theorem index_at : ∀ t : Fin cfg1.N,
    win1_0.index t (0 : Fin 3) = t.val / 32 ∧ win1_0.index t (1 : Fin 3) = t.val % 32 ∧ win1_0.index t (2 : Fin 3) = 0
    ∧ win1_1.index t (0 : Fin 3) = t.val / 32 ∧ win1_1.index t (1 : Fin 3) = 0 ∧ win1_1.index t (2 : Fin 3) = 0
    ∧ win1_2.index t (0 : Fin 3) = t.val / 32 ∧ win1_2.index t (1 : Fin 3) = 0 ∧ win1_2.index t (2 : Fin 3) = 0
    ∧ win1_3.index t (0 : Fin 3) = t.val / 32 ∧ win1_3.index t (1 : Fin 3) = t.val % 32 ∧ win1_3.index t (2 : Fin 3) = 0 :=
  (by decide +kernel : ∀ t : Fin grid1.N, _)

/-! ## Each input window's block read off its array -/

/-- The query tile at point `t`: rows `128 · (t mod 32) + r` of batch `t / 32`. -/
theorem qblk_apply (c : Dev nD) (t : Fin cfg1.N) (y : S1x128x1024.Idx) (i : S2x4096x1024.Idx)
    (h0 : (i 0).val = t.val / 32) (h1 : (i 1).val = t.val % 32 * 128 + (y 1).val) (h2 : (i 2).val = (y 2).val) :
    (iblk1 V c 0 t : Vec Ideal S1x128x1024 .bf16) y = (V c main_v8 : S2x4096x1024.Idx → EReal) i := by
  obtain ⟨e0, e1, e2, -⟩ := index_at t
  have hy0 : (y 0).val < 1 := (y 0).isLt
  unfold iblk1
  rw [View.read_apply]
  show V c main_v8 _ = V c main_v8 _
  congr 1
  funext a
  apply Fin.ext
  match a with
  | ⟨0, _⟩ => show win1_0.index t (0 : Fin 3) * 1 + 1 * (y 0).val = (i 0).val; omega
  | ⟨1, _⟩ => show win1_0.index t (1 : Fin 3) * 128 + 1 * (y 1).val = (i 1).val; omega
  | ⟨2, _⟩ => show win1_0.index t (2 : Fin 3) * 1024 + 1 * (y 2).val = (i 2).val; omega

/-- The key block at point `t`: the whole batch `t / 32`. -/
theorem kblk_apply (c : Dev nD) (t : Fin cfg1.N) (y : S1x4096x1024.Idx) (i : S2x4096x1024.Idx)
    (h0 : (i 0).val = t.val / 32) (h1 : (i 1).val = (y 1).val) (h2 : (i 2).val = (y 2).val) :
    (iblk1 V c 1 t : Vec Ideal S1x4096x1024 .bf16) y = (V c main_v9 : S2x4096x1024.Idx → EReal) i := by
  obtain ⟨-, -, -, e0, e1, e2, -⟩ := index_at t
  have hy0 : (y 0).val < 1 := (y 0).isLt
  unfold iblk1
  rw [View.read_apply]
  show V c main_v9 _ = V c main_v9 _
  congr 1
  funext a
  apply Fin.ext
  match a with
  | ⟨0, _⟩ => show win1_1.index t (0 : Fin 3) * 1 + 1 * (y 0).val = (i 0).val; omega
  | ⟨1, _⟩ => show win1_1.index t (1 : Fin 3) * 4096 + 1 * (y 1).val = (i 1).val; omega
  | ⟨2, _⟩ => show win1_1.index t (2 : Fin 3) * 1024 + 1 * (y 2).val = (i 2).val; omega

/-- The value block at point `t`: the whole batch `t / 32`. -/
theorem vblk_apply (c : Dev nD) (t : Fin cfg1.N) (y : S1x4096x1024.Idx) (i : S2x4096x1024.Idx)
    (h0 : (i 0).val = t.val / 32) (h1 : (i 1).val = (y 1).val) (h2 : (i 2).val = (y 2).val) :
    (iblk1 V c 2 t : Vec Ideal S1x4096x1024 .f32) y = (V c main_arg1 : S2x4096x1024.Idx → EReal) i := by
  obtain ⟨-, -, -, -, -, -, e0, e1, e2, -⟩ := index_at t
  have hy0 : (y 0).val < 1 := (y 0).isLt
  unfold iblk1
  rw [View.read_apply]
  show V c main_arg1 _ = V c main_arg1 _
  congr 1
  funext a
  apply Fin.ext
  match a with
  | ⟨0, _⟩ => show win1_2.index t (0 : Fin 3) * 1 + 1 * (y 0).val = (i 0).val; omega
  | ⟨1, _⟩ => show win1_2.index t (1 : Fin 3) * 4096 + 1 * (y 1).val = (i 1).val; omega
  | ⟨2, _⟩ => show win1_2.index t (2 : Fin 3) * 1024 + 1 * (y 2).val = (i 2).val; omega

/-! ## The scratch read off the values -/

/-- The zero offsets of a whole-buffer access, in two and in three axes. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The scratch as it stands after point `t`, at (j, e): the values of batch `t / 32` at (j, e).  It holds the recast
    value block of the point `t − t mod 32`, which is a point of the same batch. -/
theorem scratch_apply (c : Dev nD) (t : Fin cfg1.N) (j : Fin 4096) (e : Fin 1024) (i : S2x4096x1024.Idx)
    (h0 : (i 0).val = t.val / 32) (h1 : (i 1).val = j.val) (h2 : (i 2).val = e.val) :
    (scAt V c t.val t.isLt : Vec Ideal S4096x1024 .bf16) (ix2 j e) = (V c main_arg1 : S2x4096x1024.Idx → EReal) i := by
  unfold scAt sc1
  rw [View.canon_unit_zero zeroOff2]
  simp only [View.ld_unit_zero (S := S1x4096x1024) zeroOff3]
  rw [Cert.KernelIdeal.Pay.pay1_apply]
  refine vblk_apply V c ⟨t.val - t.val % 32, Nat.lt_of_le_of_lt (Nat.sub_le _ _) t.isLt⟩ (ix3 (0 : Fin 1) j e) i ?_ h1 h2
  show (i 0).val = (t.val - t.val % 32) / 32
  omega

/-! ## A stored tile as a block of the attention -/

/-- A tile whose entries are the attention of its three operands — the first being rows `128 n …` of batch `b` of `Q`,
    the second the whole batch `b` of `K`, the third the whole batch `b` of `W` without its batch axis — is at the block
    index `y` the attention of `Q`, `K`, `W` at the array index `i` of batch `b`, row `128 n + y 1`, column `y 2`. -/
theorem attnTile_apply
    (q : Vec Ideal S1x128x1024 .bf16) (k : Vec Ideal S1x4096x1024 .bf16) (s : Vec Ideal S4096x1024 .bf16)
    (Q K W : S2x4096x1024.Idx → EReal) (b n : ℕ)
    (hq : ∀ (y : S1x128x1024.Idx) (i : S2x4096x1024.Idx), (i 0).val = b → (i 1).val = n * 128 + (y 1).val → (i 2).val = (y 2).val → q y = Q i)
    (hk : ∀ (y : S1x4096x1024.Idx) (i : S2x4096x1024.Idx), (i 0).val = b → (i 1).val = (y 1).val → (i 2).val = (y 2).val → k y = K i)
    (hs : ∀ (j : Fin 4096) (e : Fin 1024) (i : S2x4096x1024.Idx), (i 0).val = b → (i 1).val = j.val → (i 2).val = e.val → s (ix2 j e) = W i)
    (y : S1x128x1024.Idx) (i : S2x4096x1024.Idx)
    (hi0 : (i 0).val = b) (hi1 : (i 1).val = n * 128 + (y 1).val) (hi2 : (i 2).val = (y 2).val) :
    k1_pay2 (F := Ideal) q k s y = attnAt Q K W (i 0) (i 1) (i 2) := by
  obtain ⟨z, r, e, rfl⟩ : ∃ (z : Fin 1) (r : Fin 128) (e : Fin 1024), y = ix3 z r e := ⟨y 0, y 1, y 2, eq_ix3 y⟩
  obtain rfl : z = 0 := Subsingleton.elim _ _
  rw [Cert.KernelIdeal.Pay.pay2_attn_apply]
  unfold attnAt
  have e1 : (fun d : Fin 1024 => q (ix3 (0 : Fin 1) r d)) = fun d => Q (ix3 (i 0) (i 1) d) :=
    funext fun d => hq (ix3 (0 : Fin 1) r d) (ix3 (i 0) (i 1) d) hi0 hi1 rfl
  have e2 : (fun (j : Fin 4096) (d : Fin 1024) => k (ix3 (0 : Fin 1) j d)) = fun j d => K (ix3 (i 0) j d) :=
    funext fun j => funext fun d => hk (ix3 (0 : Fin 1) j d) (ix3 (i 0) j d) hi0 rfl rfl
  have e3 : (fun j : Fin 4096 => s (ix2 j e)) = fun j => W (ix3 (i 0) j (i 2)) :=
    funext fun j => hs j e (ix3 (i 0) j (i 2)) hi0 rfl hi2
  rw [e1, e2, e3]

/-! ## What a point writes back -/

/-- Point `t` writes back its block of the attention of the arrays the region finds. -/
theorem flushed3_eq (c : Dev nD) (t : Fin cfg1.N) :
    (dat1 V c).flushed 3 t = ((cfg1.win 3).blk t).view.read (Elt Ideal)
      (fun i => attnAt (V c main_v8) (V c main_v9) (V c main_arg1) (i 0) (i 1) (i 2)) := by
  show (cfg1.win 3).cut (grid1.coords t) ((dat1 V c).after 3 t) = _
  rw [after1_3]
  unfold out1_3
  rw [View.canon_unit_zero zeroOff3]
  simp only [View.ld_unit_zero (S := S1x128x1024) zeroOff3, View.ld_unit_zero (S := S1x4096x1024) zeroOff3,
    View.ld_unit_zero (S := S4096x1024) zeroOff2]
  obtain ⟨-, -, -, -, -, -, -, -, -, e0, e1, e2⟩ := index_at t
  funext j
  show k1_pay2 (F := Ideal) (iblk1 V c 0 t) (iblk1 V c 1 t) (scAt V c t.val t.isLt) j
    = attnAt (V c main_v8) (V c main_v9) (V c main_arg1) ((((cfg1.win 3).blk t).view.emb j) 0)
        ((((cfg1.win 3).blk t).view.emb j) 1) ((((cfg1.win 3).blk t).view.emb j) 2)
  have hj0 : (j 0).val < 1 := (j 0).isLt
  refine attnTile_apply (iblk1 V c 0 t) (iblk1 V c 1 t) (scAt V c t.val t.isLt) (V c main_v8) (V c main_v9) (V c main_arg1)
    (t.val / 32) (t.val % 32)
    (fun y i h0 h1 h2 => qblk_apply V c t y i h0 h1 h2) (fun y i h0 h1 h2 => kblk_apply V c t y i h0 h1 h2)
    (fun j' e i h0 h1 h2 => scratch_apply V c t j' e i h0 h1 h2) j _ ?_ ?_ ?_
  · show win1_3.index t (0 : Fin 3) * 1 + 1 * (j 0).val = t.val / 32; omega
  · show win1_3.index t (1 : Fin 3) * 128 + 1 * (j 1).val = t.val % 32 * 128 + (j 1).val; omega
  · show win1_3.index t (2 : Fin 3) * 1024 + 1 * (j 2).val = (j 2).val; omega

/-! ## The blocks tile the result array -/

/-- An index of the result is in point `t`'s block iff each coordinate is in the block's range on its axis. -/
theorem mem_blk3 (t : Fin cfg1.N) (i : S2x4096x1024.Idx) :
    i ∈ ((cfg1.win 3).blk t).view.set ↔ ∀ a : Fin 3, win1_3.index t a * S1x128x1024.size a ≤ (i a).val
      ∧ (i a).val < win1_3.index t a * S1x128x1024.size a + S1x128x1024.size a := by
  show i ∈ ((View.whole main_v10).slice (win1_3.rect t)).set ↔ _
  rw [View.set_slice_whole, Rect.mem_set_unit]
  exact Iff.rfl

/-- Row `s` of batch `b` of the result is in the block of point `32 b + s / 128`. -/
theorem cover3 (i : S2x4096x1024.Idx) : ∃ t : Fin cfg1.N, (cfg1.win 3).flush t = true ∧ i ∈ ((cfg1.win 3).blk t).view.set := by
  have hN : grid1.N = 64 := N_1
  have hi0 : (i 0).val < 2 := (i 0).isLt
  have hi1 : (i 1).val < 4096 := (i 1).isLt
  have hi2 : (i 2).val < 1024 := (i 2).isLt
  let t : Fin cfg1.N := ⟨32 * (i 0).val + (i 1).val / 128, by show 32 * (i 0).val + (i 1).val / 128 < grid1.N; omega⟩
  obtain ⟨-, -, -, -, -, -, -, -, -, e0, e1, e2⟩ := index_at t
  have ht : t.val = 32 * (i 0).val + (i 1).val / 128 := rfl
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 1024 ≤ (i 2).val ∧ (i 2).val < win1_3.index t (2 : Fin 3) * 1024 + 1024; omega

/-! ## The result array after the region -/

/-- The result array after all points: the attention of the projected queries and keys and the values, at every index. -/
theorem final1_3 (c : Dev nD) :
    (dat1 V c).arrAt 3 cfg1.N = (fun i => attnAt (V c main_v8) (V c main_v9) (V c main_arg1) (i 0) (i 1) (i 2)) :=
  (dat1 V c).arrAt_eq_of_cover 3 _ (fun t _ => flushed3_eq V c t) cover3

end Cert.KernelIdeal.Val1

end
-- ==== Proof.KI_Value.lean ====
/-
  What the idealized kernel's program leaves in its result buffer, as a function of the arguments.

  The host stretches only re-lay data.  Before the first region the hidden states [2, 4096, 1024] are flattened to
  [8192, 1024] (row b·4096 + s is position s of batch b), each weight matrix is transposed and recast (entry (d, e) of
  the transposed matrix is entry (e, d) of the weight), and each bias becomes a row [1, 1024].  Between the regions the
  projected queries and keys [8192, 1024] are cut back into batches [2, 4096, 1024].  After the second region its
  result [2, 4096, 1024] gets a unit axis, [2, 4096, 1, 1024].  Read through these, the first region's arrays are the
  two linear layers' outputs and the second region's array is the attention over them: the specification `G`.
-/
import proofs.«136459_j45689862094989_2_alg».proof.Proof.KI_Run
import proofs.«136459_j45689862094989_2_alg».proof.Proof.KI_Val0
import proofs.«136459_j45689862094989_2_alg».proof.Proof.KI_Val1
import proofs.«136459_j45689862094989_2_alg».proof.Proof.AttnSpec
import Idealize.ShloMosaic.Lib.Pipeline.Value
import Idealize.ShloMosaic.Lib.ValueIdx
import Idealize.ShloMosaic.Lib.StableHlo.Run

noncomputable section

namespace Cert.KernelIdeal.HandValue

open Idealize.ShloMosaic Idealize.ShloMosaic.TcCoe Idealize.ShloMosaic.ValueIdx Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-! ## The first host stretch -/

/-- The flattened hidden states: row b·4096 + s is position s of batch b. -/
theorem v6_at (c : Dev nD) (b : Fin 2) (s : Fin 4096) (d : Fin 1024) :
    V1 m ρ c main_v6 (ix2 (⟨b.val * 4096 + s.val, by omega⟩ : Fin 8192) d) = m ((c : Thread nD τ).loc main_arg0) (ix3 b s d) := by
  have e : (V1 m ρ c main_v6 : S8192x1024.Idx → EReal) = shapeCast S8192x1024 (m ((c : Thread nD τ).loc main_arg0)) shapeCasts_S2x4096x1024_S8192x1024 := by
    show StableHlo.after hostOps0 (W0 m ρ c) (Proc.devRef .tc main_v6) = _
    after_results; rfl
  rw [e]
  exact shapeCast_apply _ _ _ (ix3 b s d) (by rw [Shape.rowMajor_val_three, Shape.rowMajor_val_two]; rfl)

/-- The transposed, recast query weight: entry (d, e) is entry (e, d) of the weight. -/
theorem v1_at (c : Dev nD) (d e : Fin 1024) :
    V1 m ρ c main_v1 (ix2 d e) = m ((c : Thread nD τ).loc main_arg2) (ix2 e d) := by
  have e' : (V1 m ρ c main_v1 : S1024x1024.Idx → EReal) = truncf (F := Ideal) .bf16 (transpose S1024x1024 [1, 0] (m ((c : Thread nD τ).loc main_arg2)) transposes_S1024x1024_S1024x1024_1_0) bitsLt_bf16_f32 := by
    show StableHlo.after hostOps0 (W0 m ρ c) (Proc.devRef .tc main_v1) = _
    after_results
  rw [e', ValueIdx.truncf_apply]
  exact transpose_apply _ _ _ _ (ix2 e d) (fun a => by match a with | ⟨0, _⟩ => rfl | ⟨1, _⟩ => rfl)

/-- The same of the key weight. -/
theorem v3_at (c : Dev nD) (d e : Fin 1024) :
    V1 m ρ c main_v3 (ix2 d e) = m ((c : Thread nD τ).loc main_arg4) (ix2 e d) := by
  have e' : (V1 m ρ c main_v3 : S1024x1024.Idx → EReal) = truncf (F := Ideal) .bf16 (transpose S1024x1024 [1, 0] (m ((c : Thread nD τ).loc main_arg4)) transposes_S1024x1024_S1024x1024_1_0) bitsLt_bf16_f32 := by
    show StableHlo.after hostOps0 (W0 m ρ c) (Proc.devRef .tc main_v3) = _
    after_results
  rw [e', ValueIdx.truncf_apply]
  exact transpose_apply _ _ _ _ (ix2 e d) (fun a => by match a with | ⟨0, _⟩ => rfl | ⟨1, _⟩ => rfl)

/-- The query bias as a row. -/
theorem v4_at (c : Dev nD) (e : Fin 1024) :
    V1 m ρ c main_v4 (ix2 (0 : Fin 1) e) = m ((c : Thread nD τ).loc main_arg3) (ix1 e) := by
  have e' : (V1 m ρ c main_v4 : S1x1024.Idx → EReal) = shapeCast S1x1024 (m ((c : Thread nD τ).loc main_arg3)) shapeCasts_S1024_S1x1024 := by
    show StableHlo.after hostOps0 (W0 m ρ c) (Proc.devRef .tc main_v4) = _
    after_results; rfl
  rw [e']
  exact shapeCast_apply _ _ _ (ix1 e) (by rw [Shape.rowMajor_val_one, Shape.rowMajor_val_two]; show e.val = 0 * 1024 + e.val; omega)

/-- The key bias as a row. -/
theorem v5_at (c : Dev nD) (e : Fin 1024) :
    V1 m ρ c main_v5 (ix2 (0 : Fin 1) e) = m ((c : Thread nD τ).loc main_arg5) (ix1 e) := by
  have e' : (V1 m ρ c main_v5 : S1x1024.Idx → EReal) = shapeCast S1x1024 (m ((c : Thread nD τ).loc main_arg5)) shapeCasts_S1024_S1x1024 := by
    show StableHlo.after hostOps0 (W0 m ρ c) (Proc.devRef .tc main_v5) = _
    after_results; rfl
  rw [e']
  exact shapeCast_apply _ _ _ (ix1 e) (by rw [Shape.rowMajor_val_one, Shape.rowMajor_val_two]; show e.val = 0 * 1024 + e.val; omega)

/-! ## The second host stretch -/

/-- The projected queries cut back into batches. -/
theorem v8_at (c : Dev nD) (b : Fin 2) (s : Fin 4096) (d : Fin 1024) :
    V3 m ρ c main_v8 (ix3 b s d) = W2 m ρ c (Proc.devRef .tc main_v7_0) (ix2 (⟨b.val * 4096 + s.val, by omega⟩ : Fin 8192) d) := by
  have e : (V3 m ρ c main_v8 : S2x4096x1024.Idx → EReal) = shapeCast S2x4096x1024 (W2 m ρ c (Proc.devRef .tc main_v7_0)) shapeCasts_S8192x1024_S2x4096x1024 := by
    show StableHlo.after hostOps1 (W2 m ρ c) (Proc.devRef .tc main_v8) = _
    after_results; rfl
  rw [e]
  exact shapeCast_apply _ _ _ (ix2 (⟨b.val * 4096 + s.val, by omega⟩ : Fin 8192) d) (by rw [Shape.rowMajor_val_three, Shape.rowMajor_val_two]; rfl)

/-- The projected keys cut back into batches. -/
theorem v9_at (c : Dev nD) (b : Fin 2) (s : Fin 4096) (d : Fin 1024) :
    V3 m ρ c main_v9 (ix3 b s d) = W2 m ρ c (Proc.devRef .tc main_v7_1) (ix2 (⟨b.val * 4096 + s.val, by omega⟩ : Fin 8192) d) := by
  have e : (V3 m ρ c main_v9 : S2x4096x1024.Idx → EReal) = shapeCast S2x4096x1024 (W2 m ρ c (Proc.devRef .tc main_v7_1)) shapeCasts_S8192x1024_S2x4096x1024 := by
    show StableHlo.after hostOps1 (W2 m ρ c) (Proc.devRef .tc main_v9) = _
    after_results; rfl
  rw [e]
  exact shapeCast_apply _ _ _ (ix2 (⟨b.val * 4096 + s.val, by omega⟩ : Fin 8192) d) (by rw [Shape.rowMajor_val_three, Shape.rowMajor_val_two]; rfl)

/-- The value states reach the second region as launched. -/
theorem arg1_at (c : Dev nD) : V3 m ρ c main_arg1 = m ((c : Thread nD τ).loc main_arg1) :=
  calc W3 m ρ c (Proc.devRef .tc main_arg1)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The last host stretch -/

/-- The result with its unit axis. -/
theorem v11_at (c : Dev nD) (b : Fin 2) (s : Fin 4096) (e : Fin 1024) :
    W5 m ρ c (Proc.devRef .tc main_v11) (ix4 b s (0 : Fin 1) e) = W4 m ρ c (Proc.devRef .tc main_v10) (ix3 b s e) := by
  have e' : (W5 m ρ c (Proc.devRef .tc main_v11) : S2x4096x1x1024.Idx → EReal) = shapeCast S2x4096x1x1024 (W4 m ρ c (Proc.devRef .tc main_v10)) shapeCasts_S2x4096x1024_S2x4096x1x1024 := by
    show StableHlo.after hostOps2 (W4 m ρ c) (Proc.devRef .tc main_v11) = _
    after_results; rfl
  rw [e']
  exact shapeCast_apply _ _ _ (ix3 b s e) (by rw [Shape.rowMajor_val_three, Shape.rowMajor_val_four]; show (b.val * 4096 + s.val) * 1024 + e.val = ((b.val * 4096 + s.val) * 1 + 0) * 1024 + e.val; omega)

/-! ## The two regions' arrays read through the host stretches -/

/-- The projected queries the second region finds, at (b, s, e): the first linear layer at row (b, s) of the hidden
    states, feature `e`. -/
theorem q_at (c : Dev nD) (b : Fin 2) (s : Fin 4096) (e : Fin 1024) :
    V3 m ρ c main_v8 (ix3 b s e)
      = Cert.AttnSpec.proj (m ((c : Thread nD τ).loc main_arg0)) (m ((c : Thread nD τ).loc main_arg2)) (m ((c : Thread nD τ).loc main_arg3)) b s e := by
  have h : W2 m ρ c (Proc.devRef .tc main_v7_0)
      = fun i => Val0.projAt (V1 m ρ c main_v6) (V1 m ρ c main_v1) (V1 m ρ c main_v4) (i 0) (i 1) :=
    (W2_arr m ρ c 5).trans (Val0.final0_5 (V1 m ρ) c)
  rw [v8_at, h]
  show Cert.AttnSpec.lin (fun d => V1 m ρ c main_v6 (ix2 (⟨b.val * 4096 + s.val, by omega⟩ : Fin 8192) d))
      (fun d => V1 m ρ c main_v1 (ix2 d e)) (V1 m ρ c main_v4 (ix2 (0 : Fin 1) e))
    = Cert.AttnSpec.lin (fun d => m ((c : Thread nD τ).loc main_arg0) (ix3 b s d))
      (fun d => m ((c : Thread nD τ).loc main_arg2) (ix2 e d)) (m ((c : Thread nD τ).loc main_arg3) (ix1 e))
  have h1 : (fun d : Fin 1024 => V1 m ρ c main_v6 (ix2 (⟨b.val * 4096 + s.val, by omega⟩ : Fin 8192) d))
      = fun d => m ((c : Thread nD τ).loc main_arg0) (ix3 b s d) := funext fun d => v6_at m ρ c b s d
  have h2 : (fun d : Fin 1024 => V1 m ρ c main_v1 (ix2 d e)) = fun d => m ((c : Thread nD τ).loc main_arg2) (ix2 e d) :=
    funext fun d => v1_at m ρ c d e
  rw [h1, h2, v4_at]

/-- The projected keys the second region finds, at (b, s, e): the second linear layer likewise. -/
theorem k_at (c : Dev nD) (b : Fin 2) (s : Fin 4096) (e : Fin 1024) :
    V3 m ρ c main_v9 (ix3 b s e)
      = Cert.AttnSpec.proj (m ((c : Thread nD τ).loc main_arg0)) (m ((c : Thread nD τ).loc main_arg4)) (m ((c : Thread nD τ).loc main_arg5)) b s e := by
  have h : W2 m ρ c (Proc.devRef .tc main_v7_1)
      = fun i => Val0.projAt (V1 m ρ c main_v6) (V1 m ρ c main_v3) (V1 m ρ c main_v5) (i 0) (i 1) :=
    (W2_arr m ρ c 6).trans (Val0.final0_6 (V1 m ρ) c)
  rw [v9_at, h]
  show Cert.AttnSpec.lin (fun d => V1 m ρ c main_v6 (ix2 (⟨b.val * 4096 + s.val, by omega⟩ : Fin 8192) d))
      (fun d => V1 m ρ c main_v3 (ix2 d e)) (V1 m ρ c main_v5 (ix2 (0 : Fin 1) e))
    = Cert.AttnSpec.lin (fun d => m ((c : Thread nD τ).loc main_arg0) (ix3 b s d))
      (fun d => m ((c : Thread nD τ).loc main_arg4) (ix2 e d)) (m ((c : Thread nD τ).loc main_arg5) (ix1 e))
  have h1 : (fun d : Fin 1024 => V1 m ρ c main_v6 (ix2 (⟨b.val * 4096 + s.val, by omega⟩ : Fin 8192) d))
      = fun d => m ((c : Thread nD τ).loc main_arg0) (ix3 b s d) := funext fun d => v6_at m ρ c b s d
  have h2 : (fun d : Fin 1024 => V1 m ρ c main_v3 (ix2 d e)) = fun d => m ((c : Thread nD τ).loc main_arg4) (ix2 e d) :=
    funext fun d => v3_at m ρ c d e
  rw [h1, h2, v5_at]

/-! ## The result -/

/-- The result buffer at the end is the specification of the six arguments as launched. -/
theorem result_eq (c : Dev nD) :
    (W5 m ρ c (Proc.devRef .tc main_v11) : S2x4096x1x1024.Idx → EReal)
      = Cert.AttnSpec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨b, s, z, e, rfl⟩ : ∃ (b : Fin 2) (s : Fin 4096) (z : Fin 1) (e : Fin 1024), i = ix4 b s z e :=
    ⟨i 0, i 1, i 2, i 3, eq_ix4 i⟩
  obtain rfl : z = 0 := Subsingleton.elim _ _
  have h10 : W4 m ρ c (Proc.devRef .tc main_v10)
      = fun i => Val1.attnAt (V3 m ρ c main_v8) (V3 m ρ c main_v9) (V3 m ρ c main_arg1) (i 0) (i 1) (i 2) :=
    (W4_arr m ρ c 3).trans (Val1.final1_3 (V3 m ρ) c)
  rw [v11_at, h10]
  show Cert.AttnSpec.attn (fun d => V3 m ρ c main_v8 (ix3 b s d)) (fun j d => V3 m ρ c main_v9 (ix3 b j d))
      (fun j => V3 m ρ c main_arg1 (ix3 b j e))
    = Cert.AttnSpec.attn
      (fun d => Cert.AttnSpec.proj (m ((c : Thread nD τ).loc main_arg0)) (m ((c : Thread nD τ).loc main_arg2)) (m ((c : Thread nD τ).loc main_arg3)) b s d)
      (fun j d => Cert.AttnSpec.proj (m ((c : Thread nD τ).loc main_arg0)) (m ((c : Thread nD τ).loc main_arg4)) (m ((c : Thread nD τ).loc main_arg5)) b j d)
      (fun j => m ((c : Thread nD τ).loc main_arg1) (ix3 b j e))
  have hq : (fun d : Fin 1024 => V3 m ρ c main_v8 (ix3 b s d))
      = fun d => Cert.AttnSpec.proj (m ((c : Thread nD τ).loc main_arg0)) (m ((c : Thread nD τ).loc main_arg2)) (m ((c : Thread nD τ).loc main_arg3)) b s d :=
    funext fun d => q_at m ρ c b s d
  have hk : (fun (j : Fin 4096) (d : Fin 1024) => V3 m ρ c main_v9 (ix3 b j d))
      = fun j d => Cert.AttnSpec.proj (m ((c : Thread nD τ).loc main_arg0)) (m ((c : Thread nD τ).loc main_arg4)) (m ((c : Thread nD τ).loc main_arg5)) b j d :=
    funext fun j => funext fun d => k_at m ρ c b j d
  rw [hq, hk, arg1_at]

end Cert.KernelIdeal.HandValue

end
-- ==== Proof.AttnLaw.lean ====
/-
  The algebra behind the two arrangements of the softmax quotient.

  Every entry of the projected query and key rows is a real number when the inputs are (`lin_real`), so every
  score is real; the maximum of a row of real scores folded from −∞ is one of the scores, hence real; a score
  minus that maximum is real and its exponential is a positive real.  The sum `L` of 4096 positive reals is a
  positive real, so the quotient by `L` is the product with `L⁻¹`, and over the reals
  `Σ_j (p_j · L⁻¹) · v_j = (Σ_j p_j · v_j) · L⁻¹`: dividing every weight before the weighted sum (`attnRef`)
  or the weighted sum once (`attn`) is the same number.
-/
import proofs.«136459_j45689862094989_2_alg».proof.Proof.AttnSpec

noncomputable section

namespace Cert.AttnLaw

open Idealize.ShloMosaic Cert.AttnSpec

/-- A family of extended reals that avoids both infinities is the image of a family of reals. -/
theorem exists_real_family {ι : Type} {x : ι → EReal} (h : AllReal x) : ∃ f : ι → ℝ, x = fun i => (f i : EReal) :=
  ⟨fun i => (x i).toReal, funext fun i => (EReal.coe_toReal (h i).2 (h i).1).symm⟩

/-- An extended real that avoids both infinities is a real. -/
theorem exists_real {x : EReal} (h : x ≠ ⊥ ∧ x ≠ ⊤) : ∃ r : ℝ, x = (r : EReal) :=
  ⟨x.toReal, (EReal.coe_toReal h.2 h.1).symm⟩

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem sum_mul_coe {ι : Type} [Fintype ι] (f g : ι → ℝ) :
    ∑ d : ι, (f d : EReal) * (g d : EReal) = ((∑ d : ι, f d * g d : ℝ) : EReal) := by
  rw [coe_sum]; exact Finset.sum_congr rfl fun d _ => (EReal.coe_mul _ _).symm

/-- A row of a linear layer on real data with a real bias is real. -/
theorem lin_real {x w : Fin 1024 → EReal} {b : EReal} (hx : AllReal x) (hw : AllReal w) (hb : b ≠ ⊥ ∧ b ≠ ⊤) :
    lin x w b ≠ ⊥ ∧ lin x w b ≠ ⊤ := by
  obtain ⟨f, rfl⟩ := exists_real_family hx
  obtain ⟨g, rfl⟩ := exists_real_family hw
  obtain ⟨c, rfl⟩ := exists_real hb
  have e : lin (fun i => (f i : EReal)) (fun i => (g i : EReal)) (c : EReal)
      = (((∑ d : Fin 1024, f d * g d) + c : ℝ) : EReal) := by
    unfold lin; rw [sum_mul_coe, EReal.coe_add]
  rw [e]; exact ⟨EReal.coe_ne_bot _, EReal.coe_ne_top _⟩

/-- The f32 pattern of −∞ is the bottom of the extended reals. -/
theorem negInf_eq_bot : negInf = ⊥ := by
  unfold negInf; simp [Ideal.ofBits, Ideal.ieee]

/-- A fold of `max` is its starting value or one of the folded values. -/
theorem fold_max_mem {ι : Type} (s : Finset ι) (b : EReal) (f : ι → EReal) :
    s.fold max b f = b ∨ ∃ j ∈ s, s.fold max b f = f j := by
  classical
  induction s using Finset.induction_on with
  | empty => exact Or.inl (Finset.fold_empty)
  | insert a s ha ih =>
    rw [Finset.fold_insert ha]
    rcases max_choice (f a) (s.fold max b f) with h | h
    · exact Or.inr ⟨a, Finset.mem_insert_self a s, h⟩
    · rw [h]
      rcases ih with h' | ⟨j, hj, h'⟩
      · exact Or.inl h'
      · exact Or.inr ⟨j, Finset.mem_insert_of_mem hj, h'⟩

/-- The maximum of a row of real scores is a real. -/
theorem rowMax_real (t : Fin 4096 → ℝ) : ∃ m : ℝ, rowMax (fun j => (t j : EReal)) = (m : EReal) := by
  unfold rowMax
  rcases fold_max_mem Finset.univ negInf (fun j => (t j : EReal)) with h | ⟨j, _, h⟩
  · exfalso
    have h0 : ((t 0 : ℝ) : EReal) ≤ (Finset.univ : Finset (Fin 4096)).fold max negInf (fun j => (t j : EReal)) :=
      (Finset.le_fold_max _).mpr (Or.inr ⟨0, Finset.mem_univ _, le_refl _⟩)
    rw [h, negInf_eq_bot] at h0
    exact EReal.coe_ne_bot _ (le_bot_iff.mp h0)
  · exact ⟨t j, h⟩

/-- The weights of a row of real scores are positive reals. -/
theorem wgt_real (t : Fin 4096 → ℝ) :
    ∃ p : Fin 4096 → ℝ, (∀ j, 0 < p j) ∧ wgt (fun j => (t j : EReal)) = fun j => (p j : EReal) := by
  obtain ⟨m, hm⟩ := rowMax_real t
  refine ⟨fun j => Real.exp (t j - m), fun j => Real.exp_pos _, funext fun j => ?_⟩
  unfold wgt; rw [hm, ← EReal.coe_sub]; rfl

/-- The law over the reals, at any finite index type: the quotient by a sum of weights that is not zero may be taken
    of every weight before the weighted sum, or of the weighted sum once. -/
theorem div_sum_law {ι : Type} [Fintype ι] (p v : ι → ℝ) (hL : (∑ j : ι, p j) ≠ 0) :
    ∑ j : ι, Ideal.div (p j : EReal) (∑ j' : ι, (p j' : EReal)) * (v j : EReal)
      = Ideal.div (∑ j : ι, (p j : EReal) * (v j : EReal)) (∑ j : ι, (p j : EReal)) := by
  rw [← coe_sum, sum_mul_coe, Ideal.div_coe hL]
  have e : ∀ j : ι, Ideal.div (p j : EReal) ((∑ j' : ι, p j' : ℝ) : EReal) * (v j : EReal)
      = ((p j * (1 / ∑ j' : ι, p j') * v j : ℝ) : EReal) := by
    intro j; rw [Ideal.div_coe hL, ← EReal.coe_mul, ← EReal.coe_mul]
  rw [Finset.sum_congr rfl fun j _ => e j, ← coe_sum, ← EReal.coe_mul]
  congr 1
  rw [Finset.sum_mul]
  exact Finset.sum_congr rfl fun j _ => by ring

/-- On real queries, keys and values the two arrangements of the softmax quotient agree. -/
theorem attnRef_eq_attn (q : Fin 1024 → EReal) (k : Fin 4096 → Fin 1024 → EReal) (v : Fin 4096 → EReal)
    (hq : AllReal q) (hk : ∀ j, AllReal (k j)) (hv : AllReal v) : attnRef q k v = attn q k v := by
  obtain ⟨qr, rfl⟩ := exists_real_family hq
  obtain ⟨vr, rfl⟩ := exists_real_family hv
  have hk' : ∃ kr : Fin 4096 → Fin 1024 → ℝ, k = fun j d => (kr j d : EReal) :=
    ⟨fun j d => (k j d).toReal, funext fun j => funext fun d => (EReal.coe_toReal (hk j d).2 (hk j d).1).symm⟩
  obtain ⟨kr, rfl⟩ := hk'
  have hs : score (fun d => (qr d : EReal)) (fun j d => (kr j d : EReal))
      = fun j => ((∑ d : Fin 1024, qr d * kr j d : ℝ) : EReal) := by
    funext j; unfold score; exact sum_mul_coe _ _
  obtain ⟨p, hp, hw⟩ := wgt_real (fun j => ∑ d : Fin 1024, qr d * kr j d)
  have hL : (∑ j : Fin 4096, p j) ≠ 0 :=
    (Finset.sum_pos (fun j _ => hp j) ⟨0, Finset.mem_univ _⟩).ne'
  unfold attnRef attn
  rw [hs, hw]
  exact div_sum_law p vr hL

end Cert.AttnLaw

end
-- ==== Proof.RefValue.lean ====
/-
  The reference program read as the specification.

  Stage by stage at an index built from its coordinates: the two linear layers are `proj` (a row of the hidden
  states against a row of the weights, plus the bias, which the two broadcasts read at the feature coordinate);
  their batched product over the feature axis is `score`; the maximum over the key axis is the fold of `max`
  from the pattern of −∞ over that axis's coordinates, and the further maximum with −∞ the reference takes
  changes nothing (`max b (fold max b s) = fold max b s`), so it is `rowMax`; subtracting it and exponentiating
  gives `wgt`; the float sum over the key axis from the pattern of zero is the sum of the weights; the quotient is
  taken of each weight; the product with the values over the key axis is `attnRef`; the reshape to
  [2, 4096, 1, 1024] reads (b, s, e) at (b, s, 0, e).  Under finite inputs `attnRef` is `attn`, which is `G`.
-/
import proofs.«136459_j45689862094989_2_alg».proof.Proof.Gen.ReferenceIdeal.Read
import proofs.«136459_j45689862094989_2_alg».proof.Proof.AttnSpec
import proofs.«136459_j45689862094989_2_alg».proof.Proof.AttnLaw

noncomputable section

namespace Cert.RefValue

open Cert.ReferenceIdeal Cert.ReferenceIdeal.Gen Cert.ReferenceIdeal.Read Cert.AttnSpec
open Idealize.ShloMosaic Idealize.ShloMosaic.ValueIdx

/-- The arguments' types. -/
abbrev TH : Type := (⟨S2x4096x1024, .f32⟩ : BufTy).Contents (Elt Ideal)
abbrev TW : Type := (⟨S1024x1024, .f32⟩ : BufTy).Contents (Elt Ideal)
abbrev TB : Type := (⟨S1024, .f32⟩ : BufTy).Contents (Elt Ideal)

/-! ## The two linear layers -/

/-- The query projection at (b, s, e). -/
theorem v3_at (x0 : TH) (x2 : TW) (x3 : TB) (b : Fin 2) (s : Fin 4096) (e : Fin 1024) :
    val_main_v3 (F := Ideal) x0 x2 x3 (ix3 b s e) = proj x0 x2 x3 b s e := by
  rw [val_main_v3_apply, val_main_v0_apply, val_main_v2_apply, val_main_v1_apply, Ideal.addf_def]
  have el : ∀ k : Fin 1024, lidx_main_v0 (ix3 b s e) k = ix3 b s k := fun k =>
    funext fun a => Fin.ext (by match a with | ⟨0, _⟩ => rfl | ⟨1, _⟩ => rfl | ⟨2, _⟩ => rfl)
  have er : ∀ k : Fin 1024, ridx_main_v0 (ix3 b s e) k = ix2 e k := fun k =>
    funext fun a => Fin.ext (by match a with | ⟨0, _⟩ => rfl | ⟨1, _⟩ => rfl)
  have eb : idx_main_v1 (idx_main_v2 (ix3 b s e)) = ix1 e :=
    funext fun a => Fin.ext (by match a with | ⟨0, _⟩ => rfl)
  rw [eb]
  unfold proj lin
  exact congrArg (· + x3 (ix1 e)) (Finset.sum_congr rfl fun k _ => by rw [el, er])

/-- The key projection at (b, s, e). -/
theorem v7_at (x0 : TH) (x4 : TW) (x5 : TB) (b : Fin 2) (s : Fin 4096) (e : Fin 1024) :
    val_main_v7 (F := Ideal) x0 x4 x5 (ix3 b s e) = proj x0 x4 x5 b s e := by
  rw [val_main_v7_apply, val_main_v4_apply, val_main_v6_apply, val_main_v5_apply, Ideal.addf_def]
  have el : ∀ k : Fin 1024, lidx_main_v4 (ix3 b s e) k = ix3 b s k := fun k =>
    funext fun a => Fin.ext (by match a with | ⟨0, _⟩ => rfl | ⟨1, _⟩ => rfl | ⟨2, _⟩ => rfl)
  have er : ∀ k : Fin 1024, ridx_main_v4 (ix3 b s e) k = ix2 e k := fun k =>
    funext fun a => Fin.ext (by match a with | ⟨0, _⟩ => rfl | ⟨1, _⟩ => rfl)
  have eb : idx_main_v5 (idx_main_v6 (ix3 b s e)) = ix1 e :=
    funext fun a => Fin.ext (by match a with | ⟨0, _⟩ => rfl)
  rw [eb]
  unfold proj lin
  exact congrArg (· + x5 (ix1 e)) (Finset.sum_congr rfl fun k _ => by rw [el, er])

/-! ## The scores -/

/-- The query row at (b, s) and the key rows at batch b. -/
abbrev qrow (x0 : TH) (x2 : TW) (x3 : TB) (b : Fin 2) (s : Fin 4096) : Fin 1024 → EReal := fun d => proj x0 x2 x3 b s d
abbrev krows (x0 : TH) (x4 : TW) (x5 : TB) (b : Fin 2) : Fin 4096 → Fin 1024 → EReal := fun j d => proj x0 x4 x5 b j d

/-- The score of query (b, s) against key j. -/
theorem v8_at (x0 : TH) (x2 : TW) (x3 : TB) (x4 : TW) (x5 : TB) (b : Fin 2) (s j : Fin 4096) :
    val_main_v8 (F := Ideal) x0 x2 x3 x4 x5 (ix3 b s j) = score (qrow x0 x2 x3 b s) (krows x0 x4 x5 b) j := by
  rw [val_main_v8_apply]
  have el : ∀ k : Fin 1024, lidx_main_v8 (ix3 b s j) k = ix3 b s k := fun k =>
    funext fun a => Fin.ext (by match a with | ⟨0, _⟩ => rfl | ⟨1, _⟩ => rfl | ⟨2, _⟩ => rfl)
  have er : ∀ k : Fin 1024, ridx_main_v8 (ix3 b s j) k = ix3 b j k := fun k =>
    funext fun a => Fin.ext (by match a with | ⟨0, _⟩ => rfl | ⟨1, _⟩ => rfl | ⟨2, _⟩ => rfl)
  unfold score
  exact Finset.sum_congr rfl fun k _ => by rw [el, er, v3_at, v7_at]

/-! ## The row maximum -/

theorem reduces_d2 : S2x4096x4096.Reduces [2] S2x4096 := by decide

/-- The source index over (b, s) with key coordinate j. -/
theorem lift_d2 (b : Fin 2) (s j : Fin 4096) : reduces_d2.lift (ix2 b s) j = ix3 b s j :=
  funext fun a => Fin.ext (by match a with | ⟨0, _⟩ => rfl | ⟨1, _⟩ => rfl | ⟨2, _⟩ => rfl)

/-- The maximum over the key axis is the fold of `max` over that axis's coordinates. -/
theorem reduce_max_at (y : S2x4096x4096.Idx → EReal) (init : S_.Idx → EReal)
    (h' : S2x4096x4096.ReducesTo [2] S2x4096) (hu : 0 < S_.numel) (b : Fin 2) (s : Fin 4096) :
    Host.reduce (FloatOps.maximumf (F := Ideal) (φ := .f32)) y init h' hu (ix2 b s)
      = (Finset.univ : Finset (Fin 4096)).fold max (init (Shape.Idx.first hu)) (fun j => y (ix3 b s j)) := by
  rw [Host.reduce_eq_fold_single (FloatOps.maximumf (F := Ideal) (φ := .f32)) y init h' reduces_d2 hu (ix2 b s)]
  have e : (y ∘ reduces_d2.lift (ix2 b s)) = fun j : Fin 4096 => y (ix3 b s j) := funext fun j => congrArg y (lift_d2 b s j)
  rw [e]
  rfl

/-- A further maximum with the starting value changes nothing. -/
theorem max_fold_max {ι : Type} (t : Finset ι) (c : EReal) (f : ι → EReal) : max c (t.fold max c f) = t.fold max c f :=
  max_eq_right ((Finset.le_fold_max c).mpr (Or.inl le_rfl))

/-- The reference's row maximum at (b, s). -/
theorem v11_at (x0 : TH) (x2 : TW) (x3 : TB) (x4 : TW) (x5 : TB) (b : Fin 2) (s : Fin 4096) :
    val_main_v11 (F := Ideal) x0 x2 x3 x4 x5 (ix2 b s) = rowMax (score (qrow x0 x2 x3 b s) (krows x0 x4 x5 b)) := by
  rw [val_main_v11_apply, val_main_v10_apply, val_main_cst_0_apply, Ideal.maximumf_def]
  unfold val_main_v9
  rw [reduce_max_at, val_main_cst_apply, Ideal.ofBits_def]
  have e : (fun j => val_main_v8 (F := Ideal) x0 x2 x3 x4 x5 (ix3 b s j)) = score (qrow x0 x2 x3 b s) (krows x0 x4 x5 b) :=
    funext fun j => v8_at x0 x2 x3 x4 x5 b s j
  rw [e]
  exact max_fold_max _ _ _

/-! ## The weights, their sum, the quotient -/

/-- The weight of key j for query (b, s). -/
theorem v15_at (x0 : TH) (x2 : TW) (x3 : TB) (x4 : TW) (x5 : TB) (b : Fin 2) (s j : Fin 4096) :
    val_main_v15 (F := Ideal) x0 x2 x3 x4 x5 (ix3 b s j) = wgt (score (qrow x0 x2 x3 b s) (krows x0 x4 x5 b)) j := by
  rw [val_main_v15_apply, val_main_v14_apply, val_main_v13_apply, val_main_v12_apply, Ideal.hostUnary_exp_def,
    Ideal.subf_def, v8_at]
  have eb : idx_main_v12 (idx_main_v13 (ix3 b s j)) = ix2 b s :=
    funext fun a => Fin.ext (by match a with | ⟨0, _⟩ => rfl | ⟨1, _⟩ => rfl)
  rw [eb, v11_at]
  rfl

/-- The sum of the weights for query (b, s). -/
theorem v16_at (x0 : TH) (x2 : TW) (x3 : TB) (x4 : TW) (x5 : TB) (b : Fin 2) (s : Fin 4096) :
    val_main_v16 (F := Ideal) x0 x2 x3 x4 x5 (ix2 b s)
      = ∑ j : Fin 4096, wgt (score (qrow x0 x2 x3 b s) (krows x0 x4 x5 b)) j := by
  rw [val_main_v16_apply, val_main_cst_1_apply, Ideal.ofBits_def, Ideal.ofBits_zero_f32, zero_add]
  have ei : ∀ k : Fin 4096, idx_main_v16 (ix2 b s) k = ix3 b s k := fun k =>
    funext fun a => Fin.ext (by match a with | ⟨0, _⟩ => rfl | ⟨1, _⟩ => rfl | ⟨2, _⟩ => rfl)
  exact Finset.sum_congr rfl fun k _ => by rw [ei, v15_at]

/-- The normalised weight of key j for query (b, s). -/
theorem v19_at (x0 : TH) (x2 : TW) (x3 : TB) (x4 : TW) (x5 : TB) (b : Fin 2) (s j : Fin 4096) :
    val_main_v19 (F := Ideal) x0 x2 x3 x4 x5 (ix3 b s j)
      = Ideal.div (wgt (score (qrow x0 x2 x3 b s) (krows x0 x4 x5 b)) j)
          (∑ j' : Fin 4096, wgt (score (qrow x0 x2 x3 b s) (krows x0 x4 x5 b)) j') := by
  rw [val_main_v19_apply, val_main_v18_apply, val_main_v17_apply, Ideal.hostDivf_def, v15_at]
  have eb : idx_main_v17 (idx_main_v18 (ix3 b s j)) = ix2 b s :=
    funext fun a => Fin.ext (by match a with | ⟨0, _⟩ => rfl | ⟨1, _⟩ => rfl)
  rw [eb, v16_at]

/-! ## The product with the values, and the reshape -/

/-- The reference's attention at (b, s, e): every weight normalised before it multiplies the value column. -/
theorem v20_at (x0 x1 : TH) (x2 : TW) (x3 : TB) (x4 : TW) (x5 : TB) (b : Fin 2) (s : Fin 4096) (e : Fin 1024) :
    val_main_v20 (F := Ideal) x0 x1 x2 x3 x4 x5 (ix3 b s e)
      = attnRef (qrow x0 x2 x3 b s) (krows x0 x4 x5 b) (fun j => x1 (ix3 b j e)) := by
  rw [val_main_v20_apply]
  have el : ∀ k : Fin 4096, lidx_main_v20 (ix3 b s e) k = ix3 b s k := fun k =>
    funext fun a => Fin.ext (by match a with | ⟨0, _⟩ => rfl | ⟨1, _⟩ => rfl | ⟨2, _⟩ => rfl)
  have er : ∀ k : Fin 4096, ridx_main_v20 (ix3 b s e) k = ix3 b k e := fun k =>
    funext fun a => Fin.ext (by match a with | ⟨0, _⟩ => rfl | ⟨1, _⟩ => rfl | ⟨2, _⟩ => rfl)
  unfold attnRef
  exact Finset.sum_congr rfl fun k _ => by rw [el, er, v19_at]

/-- The reshape reads (b, s, e) at (b, s, z, e): the third axis has one coordinate. -/
theorem idx21_at (b : Fin 2) (s : Fin 4096) (z : Fin 1) (e : Fin 1024) : idx_main_v21 (ix4 b s z e) = ix3 b s e := by
  have hb := b.isLt; have hs := s.isLt; have hz := z.isLt; have he := e.isLt
  funext a
  apply Fin.ext
  match a with
  | ⟨0, _⟩ => show (((b.val * 4096 + s.val) * 1 + z.val) * 1024 + e.val) / 4194304 = b.val; omega
  | ⟨1, _⟩ => show (((b.val * 4096 + s.val) * 1 + z.val) * 1024 + e.val) / 1024 % 4096 = s.val; omega
  | ⟨2, _⟩ => show (((b.val * 4096 + s.val) * 1 + z.val) * 1024 + e.val) % 1024 = e.val; omega

/-! ## Finiteness of the projected rows -/

theorem proj_real {x0 : TH} {W : TW} {c : TB} (h0 : AllReal x0) (hW : AllReal W) (hc : AllReal c)
    (b : Fin 2) (s : Fin 4096) (e : Fin 1024) : proj x0 W c b s e ≠ ⊥ ∧ proj x0 W c b s e ≠ ⊤ :=
  Cert.AttnLaw.lin_real (fun d => h0 (ix3 b s d)) (fun d => hW (ix2 e d)) (hc (ix1 e))

/-! ## The reference is the specification -/

theorem val_eq_G (x0 x1 : (⟨Cert.ReferenceIdeal.S2x4096x1024, .f32⟩ : BufTy).Contents (Elt Ideal))
    (x2 : (⟨Cert.ReferenceIdeal.S1024x1024, .f32⟩ : BufTy).Contents (Elt Ideal))
    (x3 : (⟨Cert.ReferenceIdeal.S1024, .f32⟩ : BufTy).Contents (Elt Ideal))
    (x4 : (⟨Cert.ReferenceIdeal.S1024x1024, .f32⟩ : BufTy).Contents (Elt Ideal))
    (x5 : (⟨Cert.ReferenceIdeal.S1024, .f32⟩ : BufTy).Contents (Elt Ideal))
    (h0 : Cert.AttnSpec.AllReal x0) (h1 : Cert.AttnSpec.AllReal x1) (h2 : Cert.AttnSpec.AllReal x2)
    (h3 : Cert.AttnSpec.AllReal x3) (h4 : Cert.AttnSpec.AllReal x4) (h5 : Cert.AttnSpec.AllReal x5) :
    Cert.ReferenceIdeal.Read.val_main_v21 (F := Ideal) x0 x1 x2 x3 x4 x5 = Cert.AttnSpec.G x0 x1 x2 x3 x4 x5 := by
  funext i
  obtain ⟨b, s, z, e, rfl⟩ : ∃ (b : Fin 2) (s : Fin 4096) (z : Fin 1) (e : Fin 1024), i = ix4 b s z e :=
    ⟨i 0, i 1, i 2, i 3, ValueIdx.eq_ix4 i⟩
  rw [val_main_v21_apply, idx21_at, v20_at]
  show attnRef (qrow x0 x2 x3 b s) (krows x0 x4 x5 b) (fun j => x1 (ix3 b j e))
    = attn (qrow x0 x2 x3 b s) (krows x0 x4 x5 b) (fun j => x1 (ix3 b j e))
  exact Cert.AttnLaw.attnRef_eq_attn _ _ _ (fun d => proj_real h0 h2 h3 _ _ d) (fun j d => proj_real h0 h4 h5 _ j d)
    (fun j => h1 _)

end Cert.RefValue

end
-- ==== Proof.FiniteArgs.lean ====
/-
  The precondition read back: every entry of every argument is a real number.

  The predicate compares the absolute value of each entry with the f32 pattern of +∞, strictly, takes the
  conjunction over every entry of each argument, and the conjunction of the six results.  The pattern of +∞ is
  the top of the extended reals, and `max x (−x) < ⊤` fails at both infinities; so when the predicate holds each
  entry avoids ⊥ and ⊤.
-/
import proofs.«136459_j45689862094989_2_alg».proof.Pre_finite_inputs
import proofs.«136459_j45689862094989_2_alg».proof.Proof.AttnSpec
import Idealize.ShloMosaic.Lib.ReduceAll

noncomputable section

namespace Cert.FiniteArgs

open Idealize.ShloMosaic Cert.Pre_finite_inputs

/-- The rank-0 shape has one index. -/
instance : Subsingleton S_.Idx := ⟨fun _ _ => funext fun d => d.elim0⟩

/-- The f32 pattern `0x7F800000` is the top of the extended reals. -/
theorem posInf_eq_top : Ideal.ofBits .f32 0x7F800000#32 = (⊤ : EReal) := by
  simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : x ≠ ⊥ ∧ x ≠ ⊤ := by
  rw [posInf_eq_top] at h
  have h' : max x (-x) < ⊤ := by
    by_contra hn
    simp [Ideal.cmp, hn] at h
  constructor
  · rintro rfl; simp at h'
  · rintro rfl; simp at h'

/-- One argument: when the conjunction over all its entries of `|x| < +∞` is 1, every entry is real. -/
theorem allReal_of_reduce {s : Shape} {axes : List (Fin s.rank)} (a : FVec Ideal s .f32)
    (bc : S_.BroadcastsInDim s (![] : Fin 0 → Fin s.rank)) (r : s.ReducesTo axes S_) (hu : 0 < S_.numel)
    (init : IVec S_ 1) (j : S_.Idx)
    (e : Host.reduce IntOp.andi
        (cmpf .olt (Host.absf a) (broadcastInDim s ![] bc (constant S_ .f32 0x7F800000#32))) init r hu j = 1#1) :
    Cert.AttnSpec.AllReal a := by
  intro i
  have hi := Host.reduce_andi_all _ init r hu j e i
  exact real_of_abs_lt (a i) hi

variable [Cert.Pre_finite_inputs.Facts]

/-- The precondition decoded: all six arguments are families of reals. -/
theorem of_pre (a0 a1 : FVec Ideal Cert.Pre_finite_inputs.S2x4096x1024 .f32)
    (a2 : FVec Ideal Cert.Pre_finite_inputs.S1024x1024 .f32) (a3 : FVec Ideal Cert.Pre_finite_inputs.S1024 .f32)
    (a4 : FVec Ideal Cert.Pre_finite_inputs.S1024x1024 .f32) (a5 : FVec Ideal Cert.Pre_finite_inputs.S1024 .f32)
    (h : Cert.Pre_finite_inputs.fn (F := Ideal) a0 a1 a2 a3 a4 a5 = fun _ => 1#1) :
    Cert.AttnSpec.AllReal a0 ∧ Cert.AttnSpec.AllReal a1 ∧ Cert.AttnSpec.AllReal a2 ∧ Cert.AttnSpec.AllReal a3 ∧
      Cert.AttnSpec.AllReal a4 ∧ Cert.AttnSpec.AllReal a5 := by
  have e := congrFun h ValueIdx.ix0
  dsimp only [Cert.Pre_finite_inputs.fn, Cert.Pre_finite_inputs.fn_part1, andi] at e
  simp only [IntOp.andi_eq_one] at e
  obtain ⟨⟨⟨⟨⟨e0, e1⟩, e2⟩, e3⟩, e4⟩, e5⟩ := e
  exact ⟨allReal_of_reduce a0 _ _ _ _ _ e0, allReal_of_reduce a1 _ _ _ _ _ e1, allReal_of_reduce a2 _ _ _ _ _ e2,
    allReal_of_reduce a3 _ _ _ _ _ e3, allReal_of_reduce a4 _ _ _ _ _ e4, allReal_of_reduce a5 _ _ _ _ _ e5⟩

end Cert.FiniteArgs

end
-- ==== Proof.lean ====
/-
  Attention over two linear layers: the tiled kernel and the plain reference compute one function.

  Both programs take hidden states and value states [2, 4096, 1024], two weight matrices [1024, 1024] and two biases
  [1024].  Queries and keys are linear layers of the hidden states, `Σ_d x[b, s, d] · W[e, d] + bias[e]`; row (b, s)
  of the result is the softmax of the scores of query row (b, s) against the 4096 key rows of batch `b`, applied to
  the value states of batch `b`:  `out[b, s, e] = (Σ_j w_j · v[b, j, e]) / (Σ_j w_j)`, `w_j = exp (score_j − max_j' score_j')`.

  The kernel computes this in two grids.  The first cuts the 8192 flattened rows of the hidden states into 16 tiles
  and writes both linear layers of each tile; the second, for each batch and each tile of 128 query rows, forms the
  scores against all keys of the batch, the weights, the weighted sum of the values (kept from the batch's first tile
  on in a buffer carried from tile to tile) and divides once by the sum of the weights.  The reference divides every
  weight by the sum of the weights before it multiplies the values.  On the extended reals the two arrangements agree
  when every argument entry is a real number — `(Σ_j w_j v_j) / l = Σ_j (w_j / l) v_j` for real `v_j` and `0 < l < ∞` —
  which is what the precondition says; this is the one place the precondition is opened.

  The three frames: every execution of each program ends, nothing faults, the arguments end as launched.  For the two
  kernel programs that is the run of two grids between three stretches of re-layouts, in which the carried buffer's
  contents after each tile are named; for the reference it is its straight-line run.  No rewrite was applied between
  the kernel and its idealization, so that conjunct is empty.  The last conjunct puts the idealized kernel's result —
  read off its run block by block, the blocks tiling each array — and the reference's result — read stage by stage —
  at the same function `AttnSpec.G` of the arguments.
-/
import proofs.«136459_j45689862094989_2_alg».proof.Defs
import proofs.«136459_j45689862094989_2_alg».proof.Proof.Gen.Kernel
import proofs.«136459_j45689862094989_2_alg».proof.Proof.Gen.Kernel.Skeleton
import proofs.«136459_j45689862094989_2_alg».proof.Proof.Gen.Kernel.Launch
import proofs.«136459_j45689862094989_2_alg».proof.Proof.Gen.Kernel.Regions
import proofs.«136459_j45689862094989_2_alg».proof.Proof.Gen.Kernel.Points
import proofs.«136459_j45689862094989_2_alg».proof.Proof.Gen.KernelIdeal
import proofs.«136459_j45689862094989_2_alg».proof.Proof.Gen.KernelIdeal.Skeleton
import proofs.«136459_j45689862094989_2_alg».proof.Proof.Gen.KernelIdeal.Launch
import proofs.«136459_j45689862094989_2_alg».proof.Proof.Gen.KernelIdeal.Regions
import proofs.«136459_j45689862094989_2_alg».proof.Proof.Gen.KernelIdeal.Points
import proofs.«136459_j45689862094989_2_alg».proof.Proof.Gen.ReferenceIdeal
import proofs.«136459_j45689862094989_2_alg».proof.Proof.Gen.ReferenceIdeal.Run
import proofs.«136459_j45689862094989_2_alg».proof.Proof.Gen.ReferenceIdeal.Read
import proofs.«136459_j45689862094989_2_alg».proof.Proof.Gen.Pre_finite_inputs
import proofs.«136459_j45689862094989_2_alg».proof.Proof.K_Run
import proofs.«136459_j45689862094989_2_alg».proof.Proof.KI_Value
import proofs.«136459_j45689862094989_2_alg».proof.Proof.RefValue
import proofs.«136459_j45689862094989_2_alg».proof.Proof.FiniteArgs
import Idealize.ShloMosaic.Adequacy
import Idealize.ShloMosaic.Init

noncomputable section

namespace Cert.Proof

open Idealize.ShloMosaic Idealize.ShloMosaic.TcCoe Idealize.SL.Sem

/-- The kernel runs and leaves its arguments as launched. -/
theorem frame_kernel : Cert.frame_Kernel := fun m ρ _ => Cert.Kernel.Hand.frame m ρ

/-- The idealized kernel likewise. -/
theorem frame_kernelIdeal : Cert.frame_KernelIdeal := fun m ρ _ => Cert.KernelIdeal.Hand.frame m ρ

/-- The reference likewise: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite was applied between the kernel and its idealization. -/
theorem preserves : Cert.preserves_Kernel_KernelIdeal := trivial

/-- From memories agreeing on the arguments, both idealized programs end with the specification of the arguments in
    their result buffers.  The kernel's side needs no finiteness; the reference's arrangement is the specification's
    once every argument entry is real, which the precondition gives. -/
theorem algebraic : Cert.algebraic_KernelIdeal_ReferenceIdeal := by
  intro m ρ m' ρ' hpre hagree
  refine ⟨fun c => Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c =>
      ⟨(h c _ (Cert.KernelIdeal.Hand.mem_uc Cert.KernelIdeal.main_v11 (by decide))).trans (Cert.KernelIdeal.HandValue.result_eq m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨r0, r1, r2, r3, r4, r5⟩ := Cert.FiniteArgs.of_pre _ _ _ _ _ _ (hpre c)
    obtain ⟨a0, a1, a2, a3, a4, a5⟩ := hagree c
    rw [Cert.ReferenceIdeal.Read.val_main_v21_eq, a0, a1, a2, a3, a4, a5]
    exact Cert.RefValue.val_eq_G _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
